-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512x64 : Shape := ⟨3, ![128, 512, 64]⟩
abbrev S128x1024x64 : Shape := ⟨3, ![128, 1024, 64]⟩
abbrev S128x512x512 : Shape := ⟨3, ![128, 512, 512]⟩
abbrev S_ : Shape := ⟨0, ![]⟩

class Facts : Prop where
  bcast_S_S128x512x64 : S_.BroadcastsInDim S128x512x64 (![] : Fin 0 → Fin S128x512x64.rank)
  reducesTo_S128x512x64_S_d0_1_2 : S128x512x64.ReducesTo [0, 1, 2] S_
  h_S_ : 0 < S_.numel
  bcast_S_S128x1024x64 : S_.BroadcastsInDim S128x1024x64 (![] : Fin 0 → Fin S128x1024x64.rank)
  reducesTo_S128x1024x64_S_d0_1_2 : S128x1024x64.ReducesTo [0, 1, 2] S_

variable [Facts]

def fn_part1 {F : FTy → Type} [FloatOps F] (main_v13 : IVec S_ 1) (main_v16 : IVec S128x1024x64 1) : IVec S_ 1 :=
  let main_c_5 : IVec S_ 1 := constantI S_ 1 1#1
  let main_v17 : IVec S_ 1 := (fun x v => Host.reduce IntOp.andi x v reducesTo_S128x1024x64_S_d0_1_2 h_S_) main_v16 main_c_5
  let main_v18 : IVec S_ 1 := andi main_v13 main_v17
  main_v18

def fn {F : FTy → Type} [FloatOps F] (main_arg0 : FVec F S128x512x64 .f32) (main_arg1 : FVec F S128x512x64 .f32) (main_arg2 : FVec F S128x512x64 .f32) (main_arg3 : FVec F S128x1024x64 .f32) (main_arg4 : IVec S128x512x512 1) : IVec S_ 1 :=
  let main_v0 : FVec F S128x512x64 .f32 := Host.absf main_arg0
  let main_cst : FVec F S_ .f32 := constant S_ .f32 0x7F800000#32
  let main_v1 : FVec F S128x512x64 .f32 := broadcastInDim S128x512x64 ![] bcast_S_S128x512x64 main_cst
  let main_v2 : IVec S128x512x64 1 := cmpf .olt main_v0 main_v1
  let main_c : IVec S_ 1 := constantI S_ 1 1#1
  let main_v3 : IVec S_ 1 := (fun x v => Host.reduce IntOp.andi x v reducesTo_S128x512x64_S_d0_1_2 h_S_) main_v2 main_c
  let main_v4 : FVec F S128x512x64 .f32 := Host.absf main_arg1
  let main_cst_0 : FVec F S_ .f32 := constant S_ .f32 0x7F800000#32
  let main_v5 : FVec F S128x512x64 .f32 := broadcastInDim S128x512x64 ![] bcast_S_S128x512x64 main_cst_0
  let main_v6 : IVec S128x512x64 1 := cmpf .olt main_v4 main_v5
  let main_c_1 : IVec S_ 1 := constantI S_ 1 1#1
  let main_v7 : IVec S_ 1 := (fun x v => Host.reduce IntOp.andi x v reducesTo_S128x512x64_S_d0_1_2 h_S_) main_v6 main_c_1
  let main_v8 : IVec S_ 1 := andi main_v3 main_v7
  let main_v9 : FVec F S128x512x64 .f32 := Host.absf main_arg2
  let main_cst_2 : FVec F S_ .f32 := constant S_ .f32 0x7F800000#32
  let main_v10 : FVec F S128x512x64 .f32 := broadcastInDim S128x512x64 ![] bcast_S_S128x512x64 main_cst_2
  let main_v11 : IVec S128x512x64 1 := cmpf .olt main_v9 main_v10
  let main_c_3 : IVec S_ 1 := constantI S_ 1 1#1
  let main_v12 : IVec S_ 1 := (fun x v => Host.reduce IntOp.andi x v reducesTo_S128x512x64_S_d0_1_2 h_S_) main_v11 main_c_3
  let main_v13 : IVec S_ 1 := andi main_v8 main_v12
  let main_v14 : FVec F S128x1024x64 .f32 := Host.absf main_arg3
  let main_cst_4 : FVec F S_ .f32 := constant S_ .f32 0x7F800000#32
  let main_v15 : FVec F S128x1024x64 .f32 := broadcastInDim S128x1024x64 ![] bcast_S_S128x1024x64 main_cst_4
  let main_v16 : IVec S128x1024x64 1 := cmpf .olt main_v14 main_v15
  fn_part1 (F := F) main_v13 main_v16
-- ==== Kernel.lean ====
abbrev S128x512x64 : Shape := ⟨3, ![128, 512, 64]⟩
abbrev S128x1024x64 : Shape := ⟨3, ![128, 1024, 64]⟩
abbrev S128x512x512 : Shape := ⟨3, ![128, 512, 512]⟩
abbrev S128x512x1024 : Shape := ⟨3, ![128, 512, 1024]⟩
abbrev S2x512x64 : Shape := ⟨3, ![2, 512, 64]⟩
abbrev S2x1024x64 : Shape := ⟨3, ![2, 1024, 64]⟩
abbrev S2x512x1024 : Shape := ⟨3, ![2, 512, 1024]⟩
abbrev S128x524288 : Shape := ⟨2, ![128, 524288]⟩
abbrev S_ : Shape := ⟨0, ![]⟩
abbrev S128x524800 : Shape := ⟨2, ![128, 524800]⟩
abbrev S128x512x1025 : Shape := ⟨3, ![128, 512, 1025]⟩
abbrev S2x512x512 : Shape := ⟨3, ![2, 512, 512]⟩
abbrev S2x512 : Shape := ⟨2, ![2, 512]⟩
abbrev S2x512x1 : Shape := ⟨3, ![2, 512, 1]⟩

abbrev nBuf : Space → Nat
  | .hbm => 15
  | .vmem => 20
  | .smem => 0
  | _ => 0

abbrev bufTy : (tb : Table) → Fin (tcTables nBuf tb) → BufTy
  | .hbm, ⟨0, _⟩ => ⟨S128x512x64, .f32⟩
  | .hbm, ⟨1, _⟩ => ⟨S128x512x64, .f32⟩
  | .hbm, ⟨2, _⟩ => ⟨S128x512x64, .f32⟩
  | .hbm, ⟨3, _⟩ => ⟨S128x1024x64, .f32⟩
  | .hbm, ⟨4, _⟩ => ⟨S128x512x512, .i1⟩
  | .hbm, ⟨5, _⟩ => ⟨S128x512x1024, .f32⟩
  | .hbm, ⟨6, _⟩ => ⟨S128x524288, .f32⟩
  | .hbm, ⟨7, _⟩ => ⟨S_, .i32⟩
  | .hbm, ⟨8, _⟩ => ⟨S_, .f32⟩
  | .hbm, ⟨9, _⟩ => ⟨S128x524800, .f32⟩
  | .hbm, ⟨10, _⟩ => ⟨S128x512x1025, .f32⟩
  | .hbm, ⟨11, _⟩ => ⟨S128x512x512, .f32⟩
  | .hbm, ⟨12, _⟩ => ⟨S128x512x512, .i32⟩
  | .hbm, ⟨13, _⟩ => ⟨S128x512x64, .f32⟩
  | .hbm, ⟨14, _⟩ => ⟨S128x512x512, .f32⟩
  | .local _ .vmem, ⟨0, _⟩ => ⟨S2x512x64, .f32⟩
  | .local _ .vmem, ⟨1, _⟩ => ⟨S2x512x64, .f32⟩
  | .local _ .vmem, ⟨2, _⟩ => ⟨S2x1024x64, .f32⟩
  | .local _ .vmem, ⟨3, _⟩ => ⟨S2x1024x64, .f32⟩
  | .local _ .vmem, ⟨4, _⟩ => ⟨S2x512x1024, .f32⟩
  | .local _ .vmem, ⟨5, _⟩ => ⟨S2x512x1024, .f32⟩
  | .local _ .vmem, ⟨6, _⟩ => ⟨S2x512x64, .f32⟩
  | .local _ .vmem, ⟨7, _⟩ => ⟨S2x512x64, .f32⟩
  | .local _ .vmem, ⟨8, _⟩ => ⟨S2x512x64, .f32⟩
  | .local _ .vmem, ⟨9, _⟩ => ⟨S2x512x64, .f32⟩
  | .local _ .vmem, ⟨10, _⟩ => ⟨S2x512x64, .f32⟩
  | .local _ .vmem, ⟨11, _⟩ => ⟨S2x512x64, .f32⟩
  | .local _ .vmem, ⟨12, _⟩ => ⟨S2x512x512, .f32⟩
  | .local _ .vmem, ⟨13, _⟩ => ⟨S2x512x512, .f32⟩
  | .local _ .vmem, ⟨14, _⟩ => ⟨S2x512x512, .i32⟩
  | .local _ .vmem, ⟨15, _⟩ => ⟨S2x512x512, .i32⟩
  | .local _ .vmem, ⟨16, _⟩ => ⟨S2x512x64, .f32⟩
  | .local _ .vmem, ⟨17, _⟩ => ⟨S2x512x64, .f32⟩
  | .local _ .vmem, ⟨18, _⟩ => ⟨S2x512x512, .f32⟩
  | .local _ .vmem, ⟨19, _⟩ => ⟨S2x512x512, .f32⟩
  | _, _ => ⟨S128x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2x512x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2x512x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2x512x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2x512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2x512x512 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2x512x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2x512x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  inb_S2x512x64_S2x512x64_0_0_0 : ∀ a, (![0, 0, 0] : Fin 3 → Nat) a + S2x512x64.size a ≤ S2x512x64.size a
  h_S2x512x64 : 0 < S2x512x64.numel
  bitsLt_bf16_f32 : FTy.bits .bf16 < FTy.bits .f32
  inb_S2x1024x64_S2x1024x64_0_0_0 : ∀ a, (![0, 0, 0] : Fin 3 → Nat) a + S2x1024x64.size a ≤ S2x1024x64.size a
  h_S2x1024x64 : 0 < S2x1024x64.numel
  inb_S2x512x1024_S2x512x1024_0_0_0 : ∀ a, (![0, 0, 0] : Fin 3 → Nat) a + S2x512x1024.size a ≤ S2x512x1024.size a
  h_S2x512x1024 : 0 < S2x512x1024.numel
  shapeCasts_S128x512x1024_S128x524288 : S128x512x1024.ShapeCasts S128x524288
  pads_S128x524288_S128x524800_000_05120 : S128x524288.Pads (![0, 0] : Fin 2 → Nat) ![0, 512] ![0, 0] S128x524800
  h_S_ : 0 < S_.numel
  shapeCasts_S128x524800_S128x512x1025 : S128x524800.ShapeCasts S128x512x1025
  slices_S128x512x1025_S128x512x512_0_0_0 : S128x512x1025.Slices ![0, 0, 0] S128x512x512
  natLt_1_32 : 1 < 32
  inb_S2x512x512_S2x512x512_0_0_0 : ∀ a, (![0, 0, 0] : Fin 3 → Nat) a + S2x512x512.size a ≤ S2x512x512.size a
  h_S2x512x512 : 0 < S2x512x512.numel
  shapeCasts_S2x512x512_S2x512x512 : S2x512x512.ShapeCasts S2x512x512
  reduces_S2x512x512_S2x512 : S2x512x512.Reduces [2] S2x512
  shapeCasts_S2x512_S2x512x1 : S2x512.ShapeCasts S2x512x1
  broadcasts_S2x512x1_S2x512x512 : S2x512x1.Broadcasts S2x512x512
  dot_S2x512x64_S2x1024x64_S2x512x1024_2_2_1_1_0_0_wf : DotDims.WF S2x512x64 S2x1024x64 S2x512x1024 [2] [2] [1] [1] [0] [0]
  dot_S2x512x64_S2x512x64_S2x512x512_2_2_1_1_0_0_wf : DotDims.WF S2x512x64 S2x512x64 S2x512x512 [2] [2] [1] [1] [0] [0]
  dot_S2x512x512_S2x512x64_S2x512x64_2_1_1_2_0_0_wf : DotDims.WF S2x512x512 S2x512x64 S2x512x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x64.size a ≤ S128x512x64.size a
  hwx0_0 : ∀ i : grid0.Coords, EltTy.bits .f32 = 32 ∨ (Rect.block (s := S128x512x64) S2x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1024x64.size a ≤ S128x1024x64.size a
  hwx0_1 : ∀ i : grid0.Coords, EltTy.bits .f32 = 32 ∨ (Rect.block (s := S128x1024x64) S2x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x512x1024.size a ≤ S128x512x1024.size a
  hwx0_2 : ∀ i : grid0.Coords, EltTy.bits .f32 = 32 ∨ (Rect.block (s := S128x512x1024) S2x512x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x512x64.size a ≤ S128x512x64.size a
  hwx1_0 : ∀ i : grid1.Coords, EltTy.bits .f32 = 32 ∨ (Rect.block (s := S128x512x64) S2x512x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2x512x64.size a ≤ S128x512x64.size a
  hwx1_1 : ∀ i : grid1.Coords, EltTy.bits .f32 = 32 ∨ (Rect.block (s := S128x512x64) S2x512x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2x512x64.size a ≤ S128x512x64.size a
  hwx1_2 : ∀ i : grid1.Coords, EltTy.bits .f32 = 32 ∨ (Rect.block (s := S128x512x64) S2x512x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2x512x512.size a ≤ S128x512x512.size a
  hwx1_3 : ∀ i : grid1.Coords, EltTy.bits .f32 = 32 ∨ (Rect.block (s := S128x512x512) S2x512x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2x512x512.size a ≤ S128x512x512.size a
  hwx1_4 : ∀ i : grid1.Coords, EltTy.bits .i32 = 32 ∨ (Rect.block (s := S128x512x512) S2x512x512.size (cc1_transform_4 i) (hinb1_4 i)).WholeWords (EltTy.packing .i32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2x512x64.size a ≤ S128x512x64.size a
  hwx1_5 : ∀ i : grid1.Coords, EltTy.bits .f32 = 32 ∨ (Rect.block (s := S128x512x64) S2x512x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2x512x512.size a ≤ S128x512x512.size a
  hwx1_6 : ∀ i : grid1.Coords, EltTy.bits .f32 = 32 ∨ (Rect.block (s := S128x512x512) S2x512x512.size (cc1_transform_6 i) (hinb1_6 i)).WholeWords (EltTy.packing .f32)

variable [Facts₀]

def dot_S2x512x64_S2x1024x64_S2x512x1024_2_2_1_1_0_0 : DotDims S2x512x64 S2x1024x64 S2x512x1024 where
  lhsContracting := [2]
  rhsContracting := [2]
  lhsNonContracting := [1]
  rhsNonContracting := [1]
  lhsBatch := [0]
  rhsBatch := [0]
  wf := dot_S2x512x64_S2x1024x64_S2x512x1024_2_2_1_1_0_0_wf
def dot_S2x512x64_S2x512x64_S2x512x512_2_2_1_1_0_0 : DotDims S2x512x64 S2x512x64 S2x512x512 where
  lhsContracting := [2]
  rhsContracting := [2]
  lhsNonContracting := [1]
  rhsNonContracting := [1]
  lhsBatch := [0]
  rhsBatch := [0]
  wf := dot_S2x512x64_S2x512x64_S2x512x512_2_2_1_1_0_0_wf
def dot_S2x512x512_S2x512x64_S2x512x64_2_1_1_2_0_0 : DotDims S2x512x512 S2x512x64 S2x512x64 where
  lhsContracting := [2]
  rhsContracting := [1]
  lhsNonContracting := [1]
  rhsNonContracting := [2]
  lhsBatch := [0]
  rhsBatch := [0]
  wf := dot_S2x512x512_S2x512x64_S2x512x64_2_1_1_2_0_0_wf

abbrev win0_0 : Pipeline.Window sig grid0 :=
  Pipeline.Window.ofSpec (Memref.whole main_arg0) S2x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S2x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2x512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S2x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S2x512x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S2x512x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S2x512x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5) S2x512x512.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v6_0) S2x512x64.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v6_1) S2x512x512.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S128x512x64 : Shape := ⟨3, ![128, 512, 64]⟩
abbrev S128x1024x64 : Shape := ⟨3, ![128, 1024, 64]⟩
abbrev S128x512x512 : Shape := ⟨3, ![128, 512, 512]⟩
abbrev S_ : Shape := ⟨0, ![]⟩
abbrev S128x512x1024 : Shape := ⟨3, ![128, 512, 1024]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S1x512x512 : Shape := ⟨3, ![1, 512, 512]⟩
abbrev S512x512x1 : Shape := ⟨3, ![512, 512, 1]⟩
abbrev S1 : Shape := ⟨1, ![1]⟩
abbrev S1x1x1 : Shape := ⟨3, ![1, 1, 1]⟩
abbrev S128x512 : Shape := ⟨2, ![128, 512]⟩
abbrev S128x512x1 : Shape := ⟨3, ![128, 512, 1]⟩

abbrev nBuf : Space → Nat
  | .hbm => 64
  | .vmem => 0
  | .smem => 0
  | _ => 0

abbrev bufTy : (tb : Table) → Fin (tcTables nBuf tb) → BufTy
  | .hbm, ⟨0, _⟩ => ⟨S128x512x64, .f32⟩
  | .hbm, ⟨1, _⟩ => ⟨S128x512x64, .f32⟩
  | .hbm, ⟨2, _⟩ => ⟨S128x512x64, .f32⟩
  | .hbm, ⟨3, _⟩ => ⟨S128x1024x64, .f32⟩
  | .hbm, ⟨4, _⟩ => ⟨S128x512x512, .i1⟩
  | .hbm, ⟨5, _⟩ => ⟨S128x512x512, .f32⟩
  | .hbm, ⟨6, _⟩ => ⟨S_, .f32⟩
  | .hbm, ⟨7, _⟩ => ⟨S128x512x512, .f32⟩
  | .hbm, ⟨8, _⟩ => ⟨S128x512x512, .f32⟩
  | .hbm, ⟨9, _⟩ => ⟨S128x512x1024, .f32⟩
  | .hbm, ⟨10, _⟩ => ⟨S_, .f32⟩
  | .hbm, ⟨11, _⟩ => ⟨S128x512x1024, .f32⟩
  | .hbm, ⟨12, _⟩ => ⟨S128x512x1024, .f32⟩
  | .hbm, ⟨13, _⟩ => ⟨S512, .i32⟩
  | .hbm, ⟨14, _⟩ => ⟨S512x1, .i32⟩
  | .hbm, ⟨15, _⟩ => ⟨S512, .i32⟩
  | .hbm, ⟨16, _⟩ => ⟨S1x512, .i32⟩
  | .hbm, ⟨17, _⟩ => ⟨S512x512, .i32⟩
  | .hbm, ⟨18, _⟩ => ⟨S512x512, .i32⟩
  | .hbm, ⟨19, _⟩ => ⟨S512x512, .i32⟩
  | .hbm, ⟨20, _⟩ => ⟨S1x512x512, .i32⟩
  | .hbm, ⟨21, _⟩ => ⟨S_, .i32⟩
  | .hbm, ⟨22, _⟩ => ⟨S1x512x512, .i32⟩
  | .hbm, ⟨23, _⟩ => ⟨S1x512x512, .i1⟩
  | .hbm, ⟨24, _⟩ => ⟨S_, .i32⟩
  | .hbm, ⟨25, _⟩ => ⟨S1x512x512, .i32⟩
  | .hbm, ⟨26, _⟩ => ⟨S1x512x512, .i32⟩
  | .hbm, ⟨27, _⟩ => ⟨S1x512x512, .i32⟩
  | .hbm, ⟨28, _⟩ => ⟨S512x512x1, .i32⟩
  | .hbm, ⟨29, _⟩ => ⟨S1, .i32⟩
  | .hbm, ⟨30, _⟩ => ⟨S_, .i32⟩
  | .hbm, ⟨31, _⟩ => ⟨S512x512x1, .i32⟩
  | .hbm, ⟨32, _⟩ => ⟨S512x512x1, .i1⟩
  | .hbm, ⟨33, _⟩ => ⟨S1x1x1, .i32⟩
  | .hbm, ⟨34, _⟩ => ⟨S512x512x1, .i32⟩
  | .hbm, ⟨35, _⟩ => ⟨S512x512x1, .i1⟩
  | .hbm, ⟨36, _⟩ => ⟨S512x512x1, .i1⟩
  | .hbm, ⟨37, _⟩ => ⟨S_, .i1⟩
  | .hbm, ⟨38, _⟩ => ⟨S512x512, .i1⟩
  | .hbm, ⟨39, _⟩ => ⟨S128x512x512, .f32⟩
  | .hbm, ⟨40, _⟩ => ⟨S128x512x512, .i1⟩
  | .hbm, ⟨41, _⟩ => ⟨S_, .f32⟩
  | .hbm, ⟨42, _⟩ => ⟨S128x512x512, .f32⟩
  | .hbm, ⟨43, _⟩ => ⟨S128x512x512, .f32⟩
  | .hbm, ⟨44, _⟩ => ⟨S128x512x512, .f32⟩
  | .hbm, ⟨45, _⟩ => ⟨S_, .f32⟩
  | .hbm, ⟨46, _⟩ => ⟨S_, .f32⟩
  | .hbm, ⟨47, _⟩ => ⟨S128x512x512, .f32⟩
  | .hbm, ⟨48, _⟩ => ⟨S128x512x512, .f32⟩
  | .hbm, ⟨49, _⟩ => ⟨S_, .f32⟩
  | .hbm, ⟨50, _⟩ => ⟨S128x512, .f32⟩
  | .hbm, ⟨51, _⟩ => ⟨S_, .f32⟩
  | .hbm, ⟨52, _⟩ => ⟨S128x512, .f32⟩
  | .hbm, ⟨53, _⟩ => ⟨S128x512, .f32⟩
  | .hbm, ⟨54, _⟩ => ⟨S128x512x1, .f32⟩
  | .hbm, ⟨55, _⟩ => ⟨S128x512x512, .f32⟩
  | .hbm, ⟨56, _⟩ => ⟨S128x512x512, .f32⟩
  | .hbm, ⟨57, _⟩ => ⟨S128x512x512, .f32⟩
  | .hbm, ⟨58, _⟩ => ⟨S_, .f32⟩
  | .hbm, ⟨59, _⟩ => ⟨S128x512, .f32⟩
  | .hbm, ⟨60, _⟩ => ⟨S128x512x1, .f32⟩
  | .hbm, ⟨61, _⟩ => ⟨S128x512x512, .f32⟩
  | .hbm, ⟨62, _⟩ => ⟨S128x512x512, .f32⟩
  | .hbm, ⟨63, _⟩ => ⟨S128x512x64, .f32⟩
  | _, _ => ⟨S128x512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v14 : Ref sig .tc := ⟨.hbm, 43, rfl⟩
abbrev main_v15 : Ref sig .tc := ⟨.hbm, 44, rfl⟩
abbrev main_cst_1 : Ref sig .tc := ⟨.hbm, 45, rfl⟩
abbrev main_call1_v0 : Ref sig .tc := ⟨.hbm, 46, rfl⟩
abbrev main_call1_v1 : Ref sig .tc := ⟨.hbm, 47, rfl⟩
abbrev main_v16 : Ref sig .tc := ⟨.hbm, 48, rfl⟩
abbrev main_cst_2 : Ref sig .tc := ⟨.hbm, 49, rfl⟩
abbrev main_v17 : Ref sig .tc := ⟨.hbm, 50, rfl⟩
abbrev main_cst_3 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_cst_4 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩

abbrev nD : Nat := 1
abbrev τ : Topo := Topo.v7x

variable {F : FTy → Type} [FloatOps F]

class Facts₀ : Prop where
  bcast_S_S128x512x512 : S_.BroadcastsInDim S128x512x512 (![] : Fin 0 → Fin S128x512x512.rank)
  bcast_S_S128x512x1024 : S_.BroadcastsInDim S128x512x1024 (![] : Fin 0 → Fin S128x512x1024.rank)
  bcast_S512_S512x1_0 : S512.BroadcastsInDim S512x1 (![0] : Fin 1 → Fin S512x1.rank)
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  bcast_S512x512_S1x512x512_1_2 : S512x512.BroadcastsInDim S1x512x512 (![1, 2] : Fin 2 → Fin S1x512x512.rank)
  bcast_S_S1x512x512 : S_.BroadcastsInDim S1x512x512 (![] : Fin 0 → Fin S1x512x512.rank)
  shapeCasts_S1x512x512_S512x512x1 : S1x512x512.ShapeCasts S512x512x1
  bcast_S_S512x512x1 : S_.BroadcastsInDim S512x512x1 (![] : Fin 0 → Fin S512x512x1.rank)
  bcast_S1_S1x1x1_2 : S1.BroadcastsInDim S1x1x1 (![2] : Fin 1 → Fin S1x1x1.rank)
  bcast_S1x1x1_S512x512x1_0_1_2 : S1x1x1.BroadcastsInDim S512x512x1 (![0, 1, 2] : Fin 3 → Fin S512x512x1.rank)
  reducesTo_S512x512x1_S512x512_d2 : S512x512x1.ReducesTo [2] S512x512
  h_S_ : 0 < S_.numel
  bcast_S512x512_S128x512x512_1_2 : S512x512.BroadcastsInDim S128x512x512 (![1, 2] : Fin 2 → Fin S128x512x512.rank)
  reducesTo_S128x512x512_S128x512_d2 : S128x512x512.ReducesTo [2] S128x512
  bcast_S_S128x512 : S_.BroadcastsInDim S128x512 (![] : Fin 0 → Fin S128x512.rank)
  bcast_S128x512_S128x512x1_0_1 : S128x512.BroadcastsInDim S128x512x1 (![0, 1] : Fin 2 → Fin S128x512x1.rank)
  bcast_S128x512x1_S128x512x512_0_1_2 : S128x512x1.BroadcastsInDim S128x512x512 (![0, 1, 2] : Fin 3 → Fin S128x512x512.rank)
  dot_S128x512x64_S128x512x64_S128x512x512_2_2_1_1_0_0_wf : DotDims.WF S128x512x64 S128x512x64 S128x512x512 [2] [2] [1] [1] [0] [0]
  dot_S128x512x64_S128x1024x64_S128x512x1024_2_2_1_1_0_0_wf : DotDims.WF S128x512x64 S128x1024x64 S128x512x1024 [2] [2] [1] [1] [0] [0]
  gather_S128x512x1024_S512x512x1_S128x512x512_0_2_1_0_2_2_12811_wf : GatherDims.WF S128x512x1024 S512x512x1 S128x512x512 [0] [2] [1] [2] [0] 2 ![128, 1, 1]
  dot_S128x512x512_S128x512x64_S128x512x64_2_1_1_2_0_0_wf : DotDims.WF S128x512x512 S128x512x64 S128x512x64 [2] [1] [1] [2] [0] [0]

variable [Facts₀]

def dot_S128x512x64_S128x512x64_S128x512x512_2_2_1_1_0_0 : DotDims S128x512x64 S128x512x64 S128x512x512 where
  lhsContracting := [2]
  rhsContracting := [2]
  lhsNonContracting := [1]
  rhsNonContracting := [1]
  lhsBatch := [0]
  rhsBatch := [0]
  wf := dot_S128x512x64_S128x512x64_S128x512x512_2_2_1_1_0_0_wf
def dot_S128x512x64_S128x1024x64_S128x512x1024_2_2_1_1_0_0 : DotDims S128x512x64 S128x1024x64 S128x512x1024 where
  lhsContracting := [2]
  rhsContracting := [2]
  lhsNonContracting := [1]
  rhsNonContracting := [1]
  lhsBatch := [0]
  rhsBatch := [0]
  wf := dot_S128x512x64_S128x1024x64_S128x512x1024_2_2_1_1_0_0_wf
def gather_S128x512x1024_S512x512x1_S128x512x512_0_2_1_0_2_2_12811 : GatherDims S128x512x1024 S512x512x1 S128x512x512 where
  offsetDims := [0]
  collapsedSliceDims := [2]
  operandBatchingDims := [1]
  startIndicesBatchingDims := [0]
  startIndexMap := [2]
  indexVectorDim := 2
  sliceSizes := ![128, 1, 1]
  wf := gather_S128x512x1024_S512x512x1_S128x512x512_0_2_1_0_2_2_12811_wf
def dot_S128x512x512_S128x512x64_S128x512x64_2_1_1_2_0_0 : DotDims S128x512x512 S128x512x64 S128x512x64 where
  lhsContracting := [2]
  rhsContracting := [1]
  lhsNonContracting := [1]
  rhsNonContracting := [2]
  lhsBatch := [0]
  rhsBatch := [0]
  wf := dot_S128x512x512_S128x512x64_S128x512x64_2_1_1_2_0_0_wf

class Facts : Prop extends Facts₀ where

variable [Facts]
-- ==== Proof.LibAfterSplit.lean ====
/-
  A line of host operations run from given buffer contents is a fold over the line; the fold over a line is the fold
  over any tail of it started from the fold over the matching head.
-/
import Idealize.ShloMosaic.Lib.StableHlo.Run

noncomputable section

namespace Cert.AfterSplit

open Idealize.ShloMosaic Idealize.ShloMosaic.StableHlo

variable {τ : Topo} {sig : RefSig} {Val : EltTy → Type}

theorem after_append (l₁ l₂ : List (HloOp τ sig Val)) (V : Valuation τ sig Val) :
    after (l₁ ++ l₂) V = after l₂ (after l₁ V) := by
  induction l₁ generalizing V with
  | nil => rfl
  | cons op l ih => exact ih _

theorem after_take_drop (l : List (HloOp τ sig Val)) (k : ℕ) (V : Valuation τ sig Val) :
    after l V = after (l.drop k) (after (l.take k) V) := by
  rw [← after_append, List.take_append_drop]

end Cert.AfterSplit

end
-- ==== Proof.RefRunStaged.lean ====
/-
  The reference's run, read in stages.

  The reference is one straight line of 59 host operations.  What a device's buffers hold after the line is the fold of
  the operations' results over what they held at launch, and the fold over a line is the fold over any tail of it started
  from the fold over the matching head.  The line is cut into six pieces at the points where few values are still to be
  read: after the two scaled products (8 operations), after the index array of the gather (24), after the gathered
  positional term (39), after the masked logits (44), after the exponentials (53).  For each piece, from ANY entry
  contents W, the value it hands on is the stage function of the values it reads from W, and a buffer it does not write
  keeps what W held.  Chained from the inside out, the two results after the whole line are the stage functions
  `val_main_v27` and `val_main_v28` of the five arguments, which no operation of the line writes.  No step compares the
  composed term of the whole line: each piece is read against stage functions whose own inputs stay folded.
-/
import proofs.«154446_j13692355740492_2_alg».proof.Proof.RefVals
import proofs.«154446_j13692355740492_2_alg».proof.Proof.LibAfterSplit
import Idealize.ShloMosaic.Lib.StableHlo.Run

noncomputable section

namespace Cert.ReferenceIdeal.Staged

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

/-! ## The line of operations in six pieces -/

abbrev cA : List (HloOp τ sig (Elt F)) := (ops (F := F)).take 8
abbrev cB : List (HloOp τ sig (Elt F)) := ((ops (F := F)).drop 8).take 16
abbrev cD : List (HloOp τ sig (Elt F)) := ((ops (F := F)).drop 24).take 15
abbrev cE : List (HloOp τ sig (Elt F)) := ((ops (F := F)).drop 39).take 5
abbrev cF : List (HloOp τ sig (Elt F)) := ((ops (F := F)).drop 44).take 9
abbrev cG : List (HloOp τ sig (Elt F)) := (ops (F := F)).drop 53

/-! ## What each piece writes, from opaque entry contents -/

set_option maxRecDepth 8192 in
theorem A_v2 (W : Valuation τ sig (Elt F)) :
    after (cA (F := F)) W (Proc.devRef .tc main_v2) = Read.val_main_v2 (F := F) (W (Proc.devRef .tc main_arg0)) (W (Proc.devRef .tc main_arg1)) := by
  simp only [cA, ops, List.take, List.drop]
  after_results
  rfl

set_option maxRecDepth 8192 in
theorem A_v5 (W : Valuation τ sig (Elt F)) :
    after (cA (F := F)) W (Proc.devRef .tc main_v5) = Read.val_main_v5 (F := F) (W (Proc.devRef .tc main_arg0)) (W (Proc.devRef .tc main_arg3)) := by
  simp only [cA, ops, List.take, List.drop]
  after_results
  rfl

set_option maxRecDepth 8192 in
theorem B_c5 (W : Valuation τ sig (Elt F)) :
    after (cB (F := F)) W (Proc.devRef .tc main_call0_v5) = Read.val_main_call0_v5 (F := F) := by
  simp only [cB, ops, List.take, List.drop]
  after_results
  rfl

section
-- The piece's entry values and the host's reduction stay folded here: a typed read of a value then sheds its transport
-- before anything is compared, and the reduction is matched by its arguments, never opened into its fold over every
-- index of the operand.
attribute [local irreducible] Read.val_main_v5 Read.val_main_call0_v5 Host.reduce

set_option maxRecDepth 8192 in
theorem D_v14 (W : Valuation τ sig (Elt F)) (x0 : (⟨S128x512x64, .f32⟩ : BufTy).Contents (Elt F))
    (x3 : (⟨S128x1024x64, .f32⟩ : BufTy).Contents (Elt F))
    (h5 : W (Proc.devRef .tc main_v5) = Read.val_main_v5 (F := F) x0 x3) (hc : W (Proc.devRef .tc main_call0_v5) = Read.val_main_call0_v5 (F := F)) :
    after (cD (F := F)) W (Proc.devRef .tc main_v14) = Read.val_main_v14 (F := F) x0 x3 := by
  simp only [cD, ops, List.take, List.drop]
  after_results
  rw [h5, hc]
  rfl
end

set_option maxRecDepth 8192 in
theorem E_v16 (W : Valuation τ sig (Elt F)) (x0 x1 : (⟨S128x512x64, .f32⟩ : BufTy).Contents (Elt F))
    (x3 : (⟨S128x1024x64, .f32⟩ : BufTy).Contents (Elt F)) (x4 : (⟨S128x512x512, .i1⟩ : BufTy).Contents (Elt F))
    (h2 : W (Proc.devRef .tc main_v2) = Read.val_main_v2 (F := F) x0 x1) (h14 : W (Proc.devRef .tc main_v14) = Read.val_main_v14 (F := F) x0 x3)
    (h4 : W (Proc.devRef .tc main_arg4) = x4) :
    after (cE (F := F)) W (Proc.devRef .tc main_v16) = Read.val_main_v16 (F := F) x0 x1 x3 x4 := by
  simp only [cE, ops, List.take, List.drop]
  after_results
  rw [h2, h14, h4]
  rfl

set_option maxRecDepth 8192 in
theorem F_v23 (W : Valuation τ sig (Elt F)) (x0 x1 : (⟨S128x512x64, .f32⟩ : BufTy).Contents (Elt F))
    (x3 : (⟨S128x1024x64, .f32⟩ : BufTy).Contents (Elt F)) (x4 : (⟨S128x512x512, .i1⟩ : BufTy).Contents (Elt F))
    (h16 : W (Proc.devRef .tc main_v16) = Read.val_main_v16 (F := F) x0 x1 x3 x4) :
    after (cF (F := F)) W (Proc.devRef .tc main_v23) = Read.val_main_v23 (F := F) x0 x1 x3 x4 := by
  simp only [cF, ops, List.take, List.drop]
  after_results
  rw [h16]
  rfl

set_option maxRecDepth 8192 in
theorem G_v27 (W : Valuation τ sig (Elt F)) (x0 x1 : (⟨S128x512x64, .f32⟩ : BufTy).Contents (Elt F))
    (x3 : (⟨S128x1024x64, .f32⟩ : BufTy).Contents (Elt F)) (x4 : (⟨S128x512x512, .i1⟩ : BufTy).Contents (Elt F))
    (h23 : W (Proc.devRef .tc main_v23) = Read.val_main_v23 (F := F) x0 x1 x3 x4) :
    after (cG (F := F)) W (Proc.devRef .tc main_v27) = Read.val_main_v27 (F := F) x0 x1 x3 x4 := by
  simp only [cG, ops, List.take, List.drop]
  after_results
  rw [h23]
  rfl

set_option maxRecDepth 8192 in
theorem G_v28 (W : Valuation τ sig (Elt F)) (x0 x1 x2 : (⟨S128x512x64, .f32⟩ : BufTy).Contents (Elt F))
    (x3 : (⟨S128x1024x64, .f32⟩ : BufTy).Contents (Elt F)) (x4 : (⟨S128x512x512, .i1⟩ : BufTy).Contents (Elt F))
    (h23 : W (Proc.devRef .tc main_v23) = Read.val_main_v23 (F := F) x0 x1 x3 x4) (h2 : W (Proc.devRef .tc main_arg2) = x2) :
    after (cG (F := F)) W (Proc.devRef .tc main_v28) = Read.val_main_v28 (F := F) x0 x1 x2 x3 x4 := by
  simp only [cG, ops, List.take, List.drop]
  after_results
  rw [h23, h2]
  rfl

/-! ## What each piece leaves alone -/

set_option maxRecDepth 8192 in
theorem A_keep_arg2 (W : Valuation τ sig (Elt F)) :
    after (cA (F := F)) W (Proc.devRef .tc main_arg2) = W (Proc.devRef .tc main_arg2) := by
  simp only [cA, ops, List.take, List.drop]
  after_results

set_option maxRecDepth 8192 in
theorem A_keep_arg4 (W : Valuation τ sig (Elt F)) :
    after (cA (F := F)) W (Proc.devRef .tc main_arg4) = W (Proc.devRef .tc main_arg4) := by
  simp only [cA, ops, List.take, List.drop]
  after_results

set_option maxRecDepth 8192 in
theorem B_keep_arg2 (W : Valuation τ sig (Elt F)) :
    after (cB (F := F)) W (Proc.devRef .tc main_arg2) = W (Proc.devRef .tc main_arg2) := by
  simp only [cB, ops, List.take, List.drop]
  after_results

set_option maxRecDepth 8192 in
theorem B_keep_arg4 (W : Valuation τ sig (Elt F)) :
    after (cB (F := F)) W (Proc.devRef .tc main_arg4) = W (Proc.devRef .tc main_arg4) := by
  simp only [cB, ops, List.take, List.drop]
  after_results

set_option maxRecDepth 8192 in
theorem B_keep_v2 (W : Valuation τ sig (Elt F)) :
    after (cB (F := F)) W (Proc.devRef .tc main_v2) = W (Proc.devRef .tc main_v2) := by
  simp only [cB, ops, List.take, List.drop]
  after_results

set_option maxRecDepth 8192 in
theorem B_keep_v5 (W : Valuation τ sig (Elt F)) :
    after (cB (F := F)) W (Proc.devRef .tc main_v5) = W (Proc.devRef .tc main_v5) := by
  simp only [cB, ops, List.take, List.drop]
  after_results

set_option maxRecDepth 8192 in
theorem D_keep_arg2 (W : Valuation τ sig (Elt F)) :
    after (cD (F := F)) W (Proc.devRef .tc main_arg2) = W (Proc.devRef .tc main_arg2) := by
  simp only [cD, ops, List.take, List.drop]
  after_results

set_option maxRecDepth 8192 in
theorem D_keep_arg4 (W : Valuation τ sig (Elt F)) :
    after (cD (F := F)) W (Proc.devRef .tc main_arg4) = W (Proc.devRef .tc main_arg4) := by
  simp only [cD, ops, List.take, List.drop]
  after_results

set_option maxRecDepth 8192 in
theorem D_keep_v2 (W : Valuation τ sig (Elt F)) :
    after (cD (F := F)) W (Proc.devRef .tc main_v2) = W (Proc.devRef .tc main_v2) := by
  simp only [cD, ops, List.take, List.drop]
  after_results

set_option maxRecDepth 8192 in
theorem E_keep_arg2 (W : Valuation τ sig (Elt F)) :
    after (cE (F := F)) W (Proc.devRef .tc main_arg2) = W (Proc.devRef .tc main_arg2) := by
  simp only [cE, ops, List.take, List.drop]
  after_results

set_option maxRecDepth 8192 in
theorem F_keep_arg2 (W : Valuation τ sig (Elt F)) :
    after (cF (F := F)) W (Proc.devRef .tc main_arg2) = W (Proc.devRef .tc main_arg2) := by
  simp only [cF, ops, List.take, List.drop]
  after_results

/-! ## The six pieces are the whole line -/

set_option maxRecDepth 8192 in
theorem ops_split : (ops (F := F)) = cA ++ (cB ++ (cD ++ (cE ++ (cF ++ cG)))) := rfl

/-- The fold over the whole line is the folds over the six pieces, one after the other. -/
theorem after_split (V : Valuation τ sig (Elt F)) :
    after (ops (F := F)) V = after cG (after cF (after cE (after cD (after cB (after cA V))))) :=
  (congrArg (fun l => after l V) (ops_split (F := F))).trans <|
  (Cert.AfterSplit.after_append (cA (F := F)) _ V).trans <|
  (Cert.AfterSplit.after_append (cB (F := F)) _ _).trans <|
  (Cert.AfterSplit.after_append (cD (F := F)) _ _).trans <|
  (Cert.AfterSplit.after_append (cE (F := F)) _ _).trans <|
  (Cert.AfterSplit.after_append (cF (F := F)) _ _)

/-! ## The two results, as the stages of the arguments -/

/-- The logits after the first four pieces, from any entry contents. -/
theorem val16 (V : Valuation τ sig (Elt F)) :
    after (cE (F := F)) (after cD (after cB (after cA V))) (Proc.devRef .tc main_v16)
      = Read.val_main_v16 (F := F) (V (Proc.devRef .tc main_arg0)) (V (Proc.devRef .tc main_arg1)) (V (Proc.devRef .tc main_arg3)) (V (Proc.devRef .tc main_arg4)) :=
  E_v16 (after cD (after cB (after cA V))) _ _ _ _
    ((D_keep_v2 (after cB (after cA V))).trans ((B_keep_v2 (after cA V)).trans (A_v2 V)))
    (D_v14 (after cB (after cA V)) _ _ ((B_keep_v5 (after cA V)).trans (A_v5 V)) (B_c5 (after cA V)))
    ((D_keep_arg4 (after cB (after cA V))).trans ((B_keep_arg4 (after cA V)).trans (A_keep_arg4 V)))

/-- The exponentials after the fifth piece. -/
theorem val23 (V : Valuation τ sig (Elt F)) :
    after (cF (F := F)) (after cE (after cD (after cB (after cA V)))) (Proc.devRef .tc main_v23)
      = Read.val_main_v23 (F := F) (V (Proc.devRef .tc main_arg0)) (V (Proc.devRef .tc main_arg1)) (V (Proc.devRef .tc main_arg3)) (V (Proc.devRef .tc main_arg4)) :=
  F_v23 (after cE (after cD (after cB (after cA V)))) _ _ _ _ (val16 V)

/-- The attention weights after the whole line. -/
theorem val27 (V : Valuation τ sig (Elt F)) :
    after (ops (F := F)) V (Proc.devRef .tc main_v27)
      = Read.val_main_v27 (F := F) (V (Proc.devRef .tc main_arg0)) (V (Proc.devRef .tc main_arg1)) (V (Proc.devRef .tc main_arg3)) (V (Proc.devRef .tc main_arg4)) := by
  rw [after_split]
  exact G_v27 (after cF (after cE (after cD (after cB (after cA V))))) _ _ _ _ (val23 V)

/-- The values argument is untouched by the first five pieces. -/
theorem keep5_arg2 (V : Valuation τ sig (Elt F)) :
    after (cF (F := F)) (after cE (after cD (after cB (after cA V)))) (Proc.devRef .tc main_arg2) = V (Proc.devRef .tc main_arg2) :=
  (F_keep_arg2 (after cE (after cD (after cB (after cA V))))).trans <|
  (E_keep_arg2 (after cD (after cB (after cA V)))).trans <|
  (D_keep_arg2 (after cB (after cA V))).trans <|
  (B_keep_arg2 (after cA V)).trans (A_keep_arg2 V)

/-- The output after the whole line. -/
theorem val28 (V : Valuation τ sig (Elt F)) :
    after (ops (F := F)) V (Proc.devRef .tc main_v28)
      = Read.val_main_v28 (F := F) (V (Proc.devRef .tc main_arg0)) (V (Proc.devRef .tc main_arg1)) (V (Proc.devRef .tc main_arg2)) (V (Proc.devRef .tc main_arg3)) (V (Proc.devRef .tc main_arg4)) := by
  rw [after_split]
  exact G_v28 (after cF (after cE (after cD (after cB (after cA V))))) _ _ _ _ _ (val23 V) (keep5_arg2 V)

/-! ## The arguments are left alone -/

set_option maxRecDepth 8192 in
theorem keep_arg0 (V : Valuation τ sig (Elt F)) :
    after (ops (F := F)) V (Proc.devRef .tc main_arg0) = V (Proc.devRef .tc main_arg0) := by
  simp only [ops]
  after_results_simp

set_option maxRecDepth 8192 in
theorem keep_arg1 (V : Valuation τ sig (Elt F)) :
    after (ops (F := F)) V (Proc.devRef .tc main_arg1) = V (Proc.devRef .tc main_arg1) := by
  simp only [ops]
  after_results_simp

set_option maxRecDepth 8192 in
theorem keep_arg2 (V : Valuation τ sig (Elt F)) :
    after (ops (F := F)) V (Proc.devRef .tc main_arg2) = V (Proc.devRef .tc main_arg2) := by
  simp only [ops]
  after_results_simp

set_option maxRecDepth 8192 in
theorem keep_arg3 (V : Valuation τ sig (Elt F)) :
    after (ops (F := F)) V (Proc.devRef .tc main_arg3) = V (Proc.devRef .tc main_arg3) := by
  simp only [ops]
  after_results_simp

set_option maxRecDepth 8192 in
theorem keep_arg4 (V : Valuation τ sig (Elt F)) :
    after (ops (F := F)) V (Proc.devRef .tc main_arg4) = V (Proc.devRef .tc main_arg4) := by
  simp only [ops]
  after_results_simp

/-! ## The run -/

/-- On every device, for any float values, from any memory with zero counters: every weakly fair execution of
    @main terminates with each result at its stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v28) = Read.val_main_v28 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v27) = Read.val_main_v27 (F := F) (m ((c.tc : Thread nD τ).loc main_arg0)) (m ((c.tc : Thread nD τ).loc main_arg1)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v28).trans (val28 _), (h c main_v27).trans (val27 _),
      (h c main_arg0).trans (keep_arg0 _), (h c main_arg1).trans (keep_arg1 _), (h c main_arg2).trans (keep_arg2 _),
      (h c main_arg3).trans (keep_arg3 _), (h c main_arg4).trans (keep_arg4 _)⟩)
    (run_seq scopedRefs_eq scopedSems_eq defs main (fun _ => ops) main_eq (fun _ => ops_sub) m ρ)

end Cert.ReferenceIdeal.Staged

end
-- ==== Proof.KernelRun.lean ====
/-
  The idealized kernel's run with its two results named.

  The program is two kernel regions with a stretch of host operations between them.  Every weakly fair execution
  terminates, and in the final memory each buffer holds what the fold of the segments leaves in it: the two result
  arrays hold what the second region's write-backs leave, and the five argument arrays are as launched.  The
  statement is the frame theorem's with the two result buffers read as well.
-/
import proofs.«154446_j13692355740492_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates; the results are the last boundary's contents at the two result buffers
    and the arguments are as launched. -/
theorem run_named : θ_run defs (onTc (τ := τ) (main (F := F))) ⟨m, fun _ => 0, ρ⟩ (fun r => ∀ c : Dev nD,
      r.2.mem ((c.tc : Thread nD τ).loc main_v6_0) = W5 m ρ c (Proc.devRef .tc main_v6_0)
      ∧ r.2.mem ((c.tc : Thread nD τ).loc main_v6_1) = W5 m ρ c (Proc.devRef .tc main_v6_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v6_0 (by decide)),
       h c _ (mem_uc main_v6_1 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.KernelIdeal.Run

end
-- ==== Proof.Spec.lean ====
/-
  The mathematics both programs compute, stated once over the extended reals.

  Attention with a relative-position bias.  For a batch entry b, a query row i and a key column j the logit is

      s(b,i,j) = (Σ_d q[b,i,d]·k[b,j,d])·(1/8) + (Σ_d q[b,i,d]·pos[b,i+j,d])·(1/8),

  replaced by -∞ where the mask is set; the attention weights are the softmax of each row of logits, taken with the
  row's maximum subtracted (exp(s - max) / Σ exp(s - max)); the output is the weights times the values,
  Σ_j attn[b,i,j]·v[b,j,d].  The position term reads the diagonal stripe p = i + j of the [B, 512, 1024] array of
  positional scores.  Everything is generic in the batch extent B, so that the same definitions read a block of two
  batch entries and the whole array of 128.
-/
import Idealize.ShloMosaic.Lib.ValueIdx
import Idealize.ShloMosaic.PureOps.Ideal.Laws

noncomputable section

namespace Cert.Attn

open Idealize.ShloMosaic Idealize.ShloMosaic.ValueIdx

/-- The scale 1/8 = 1/√64, as the f32 word of 0.125 denotes it. -/
def scale : EReal := Ideal.ofBits .f32 0x3E000000#32

/-- The f32 word of 8.0 denotes the real 8. -/
theorem ofBits_eight : Ideal.ofBits .f32 0x41000000#32 = ((8 : ℝ) : EReal) := by
  simp [Ideal.ofBits, Ideal.ieee, -EReal.coe_mul]; norm_num

/-- The f32 word of 0.125 denotes the real 1/8. -/
theorem ofBits_eighth : Ideal.ofBits .f32 0x3E000000#32 = ((1 / 8 : ℝ) : EReal) := by
  simp [Ideal.ofBits, Ideal.ieee, -EReal.coe_mul]; norm_num

/-- The f32 word of -∞ denotes the bottom of the extended reals. -/
theorem ofBits_neg_inf : Ideal.ofBits .f32 0xFF800000#32 = ⊥ := by
  simp [Ideal.ofBits, Ideal.ieee]

/-- Dividing by 8 is multiplying by 1/8, on every extended real (the infinities included). -/
theorem div_eight (x : EReal) : Ideal.div x (Ideal.ofBits .f32 0x41000000#32) = x * scale := by
  rw [ofBits_eight, Ideal.div_coe (by norm_num : (8 : ℝ) ≠ 0), scale, ofBits_eighth]

variable {B : ℕ}

/-- The scaled query–key product at (b, i, j). -/
def keyScore (q k : (⟨3, ![B, 512, 64]⟩ : Shape).Idx → EReal) (b : Fin B) (i j : Fin 512) : EReal :=
  (∑ d : Fin 64, q (ix3 b i d) * k (ix3 b j d)) * scale

/-- The scaled query–position product at (b, i, p), p one of the 1024 relative positions. -/
def posScore (q : (⟨3, ![B, 512, 64]⟩ : Shape).Idx → EReal) (pos : (⟨3, ![B, 1024, 64]⟩ : Shape).Idx → EReal)
    (b : Fin B) (i : Fin 512) (p : Fin 1024) : EReal :=
  (∑ d : Fin 64, q (ix3 b i d) * pos (ix3 b p d)) * scale

/-- The relative position that row i and column j read: i + j, which stays below 1024. -/
def diag (i j : Fin 512) : Fin 1024 := ⟨i.val + j.val, by omega⟩

/-- A row of logits with the masked entries at -∞: `bias` is the additive term, `hit` says which entries are masked. -/
def maskedRow (hit : Fin 512 → BitVec 1) (score bias : Fin 512 → EReal) (j : Fin 512) : EReal :=
  Scalar.select (hit j) ⊥ (score j + bias j)

/-- The maximum of a row, from -∞. -/
def rowMax (s : Fin 512 → EReal) : EReal := (Finset.univ : Finset (Fin 512)).fold max ⊥ s

/-- The softmax of a row with its maximum subtracted. -/
def softmaxRow (s : Fin 512 → EReal) (j : Fin 512) : EReal :=
  Ideal.div (Ideal.exp (s j - rowMax s)) (∑ k : Fin 512, Ideal.exp (s k - rowMax s))

/-- The logit at (b, i, j). -/
def logit (q k : (⟨3, ![B, 512, 64]⟩ : Shape).Idx → EReal) (pos : (⟨3, ![B, 1024, 64]⟩ : Shape).Idx → EReal)
    (mask : (⟨3, ![B, 512, 512]⟩ : Shape).Idx → BitVec 1) (b : Fin B) (i j : Fin 512) : EReal :=
  maskedRow (fun j' => mask (ix3 b i j')) (fun j' => keyScore q k b i j') (fun j' => posScore q pos b i (diag i j')) j

/-- The attention weight at (b, i, j). -/
def attnAt (q k : (⟨3, ![B, 512, 64]⟩ : Shape).Idx → EReal) (pos : (⟨3, ![B, 1024, 64]⟩ : Shape).Idx → EReal)
    (mask : (⟨3, ![B, 512, 512]⟩ : Shape).Idx → BitVec 1) (b : Fin B) (i j : Fin 512) : EReal :=
  softmaxRow (logit q k pos mask b i) j

/-- The output at (b, i, d). -/
def outAt (q k v : (⟨3, ![B, 512, 64]⟩ : Shape).Idx → EReal) (pos : (⟨3, ![B, 1024, 64]⟩ : Shape).Idx → EReal)
    (mask : (⟨3, ![B, 512, 512]⟩ : Shape).Idx → BitVec 1) (b : Fin B) (i : Fin 512) (d : Fin 64) : EReal :=
  ∑ j : Fin 512, attnAt q k pos mask b i j * v (ix3 b j d)

/-- Row a of the t-th block of two batch entries is batch entry 2t + a. -/
def brow (tv : ℕ) (h : tv < 64) (a : Fin 2) : Fin 128 := ⟨2 * tv + a.val, by omega⟩

/-- The positional scores as one array. -/
def posArr (q : (⟨3, ![B, 512, 64]⟩ : Shape).Idx → EReal) (pos : (⟨3, ![B, 1024, 64]⟩ : Shape).Idx → EReal) :
    (⟨3, ![B, 512, 1024]⟩ : Shape).Idx → EReal :=
  fun x => posScore q pos (x 0) (x 1) (x 2)

theorem posArr_ix3 (q : (⟨3, ![B, 512, 64]⟩ : Shape).Idx → EReal) (pos : (⟨3, ![B, 1024, 64]⟩ : Shape).Idx → EReal)
    (b : Fin B) (i : Fin 512) (p : Fin 1024) : posArr q pos (ix3 b i p) = posScore q pos b i p := rfl

/-- The attention weights as one array. -/
def attnArr (q k : (⟨3, ![B, 512, 64]⟩ : Shape).Idx → EReal) (pos : (⟨3, ![B, 1024, 64]⟩ : Shape).Idx → EReal)
    (mask : (⟨3, ![B, 512, 512]⟩ : Shape).Idx → BitVec 1) : (⟨3, ![B, 512, 512]⟩ : Shape).Idx → EReal :=
  fun x => attnAt q k pos mask (x 0) (x 1) (x 2)

/-- The output as one array. -/
def outArr (q k v : (⟨3, ![B, 512, 64]⟩ : Shape).Idx → EReal) (pos : (⟨3, ![B, 1024, 64]⟩ : Shape).Idx → EReal)
    (mask : (⟨3, ![B, 512, 512]⟩ : Shape).Idx → BitVec 1) : (⟨3, ![B, 512, 64]⟩ : Shape).Idx → EReal :=
  fun x => outAt q k v pos mask (x 0) (x 1) (x 2)

theorem attnArr_ix3 (q k : (⟨3, ![B, 512, 64]⟩ : Shape).Idx → EReal) (pos : (⟨3, ![B, 1024, 64]⟩ : Shape).Idx → EReal)
    (mask : (⟨3, ![B, 512, 512]⟩ : Shape).Idx → BitVec 1) (b : Fin B) (i j : Fin 512) :
    attnArr q k pos mask (ix3 b i j) = attnAt q k pos mask b i j := rfl

theorem outArr_ix3 (q k v : (⟨3, ![B, 512, 64]⟩ : Shape).Idx → EReal) (pos : (⟨3, ![B, 1024, 64]⟩ : Shape).Idx → EReal)
    (mask : (⟨3, ![B, 512, 512]⟩ : Shape).Idx → BitVec 1) (b : Fin B) (i : Fin 512) (d : Fin 64) :
    outArr q k v pos mask (ix3 b i d) = outAt q k v pos mask b i d := rfl

end Cert.Attn

end
-- ==== Proof.LibLastAxis.lean ====
/-
  Reusable lemmas: reductions along the LAST axis of an [a, b, c] array, read at an entry over the extended reals.

  A sum over the last axis, from the zero accumulator, is at (i, k) the sum over j of the entries (i, k, j); a running
  maximum along it is the fold of max, from the accumulator's value, over those entries. Generic in the extents.
-/
import Idealize.ShloMosaic.Lib.ValueIdx
import Idealize.ShloMosaic.PureOps.Ideal.Laws

noncomputable section

namespace Cert.LastAxis

open Idealize.ShloMosaic Idealize.ShloMosaic.ValueIdx

variable {a b c : ℕ}

/-- The source index of a reduction over the last axis: the pair (i, k) with the coordinate j appended is (i, k, j). -/
theorem lift_last (h : (⟨3, ![a, b, c]⟩ : Shape).Reduces [(2 : Fin 3)] ⟨2, ![a, b]⟩) (i : Fin a) (k : Fin b) (j : Fin c) :
    h.lift (ix2 i k) j = ix3 i k j := by
  funext d
  apply Fin.ext
  show h.liftVal (ix2 i k) j.val d = (ix3 i k j d).val
  unfold Shape.Reduces.liftVal
  match d with
  | ⟨0, _⟩ => rfl
  | ⟨1, _⟩ => rfl
  | ⟨2, _⟩ => rfl

/-- A sum over the last axis of an [a, b, c] array, from the zero accumulator, is at (i, k) the sum over j of the
    entries (i, k, j). -/
theorem lastSum_apply {φ : FTy} (src : FVec Ideal ⟨3, ![a, b, c]⟩ φ) (acc : BitVec φ.bits)
    (h : (⟨3, ![a, b, c]⟩ : Shape).Reduces [(2 : Fin 3)] ⟨2, ![a, b]⟩) (hφ : FKind.Formats φ)
    (hacc : acc = FKind.add.neutral φ hφ) (i : Fin a) (k : Fin b) :
    multiReduction .add [(2 : Fin 3)] ⟨2, ![a, b]⟩ src acc h hφ hacc (ix2 i k) = ∑ j : Fin c, src (ix3 i k j) := by
  refine (Ideal.multiReduction_add_single src acc h hφ hacc (ix2 i k)).trans ?_
  show ∑ j : Fin c, src (h.lift (ix2 i k) j) = _
  exact Finset.sum_congr rfl fun j _ => congrArg src (lift_last h i k j)

/-- A running maximum along the last axis of an [a, b, c] array is at (i, k) the fold of max, from the accumulator's
    value, over the entries (i, k, j). -/
theorem lastMax_apply {φ : FTy} (src : FVec Ideal ⟨3, ![a, b, c]⟩ φ) (acc : BitVec φ.bits)
    (h : (⟨3, ![a, b, c]⟩ : Shape).Reduces [(2 : Fin 3)] ⟨2, ![a, b]⟩) (hφ : FKind.Formats φ)
    (hacc : acc = FKind.maximumf.neutral φ hφ) (i : Fin a) (k : Fin b) :
    multiReduction .maximumf [(2 : Fin 3)] ⟨2, ![a, b]⟩ src acc h hφ hacc (ix2 i k)
      = (Finset.univ : Finset (Fin c)).fold max (Ideal.ofBits φ acc) (fun j => src (ix3 i k j)) := by
  refine (Ideal.multiReduction_maximumf_single src acc h hφ hacc (ix2 i k)).trans ?_
  have e : (src ∘ h.lift (ix2 i k)) = fun j => src (ix3 i k j) := funext fun j => congrArg src (lift_last h i k j)
  show (Finset.univ : Finset (Fin c)).fold max (Ideal.ofBits φ acc) (src ∘ h.lift (ix2 i k)) = _
  rw [e]
  rfl

end Cert.LastAxis

end
-- ==== Proof.LibSlabLayout.lean ====
/-
  Reusable lemmas: an [a, b] array of rows and an [a, b, c] array of slabs read at an entry.

  A kernel that treats each of a blocks separately reduces along the middle axis of an [a, b, c] array (a sum over the b
  rows of every slab, leaving [a, c]) and along the rows of an [a, b] array (a sum or a running maximum over b, leaving
  [a]), and lays an [a, b] array along a new trailing axis ([a, b] → [a, b, 1] → [a, b, c]).  Each lemma reads one such
  operation at an entry written by its coordinates; the sums are over the extended reals.  Generic in the extents.
-/
import Idealize.ShloMosaic.Lib.Pipeline.Value
import Idealize.ShloMosaic.Lib.ValueIdx
import Idealize.ShloMosaic.PureOps.Ideal.Laws

noncomputable section

namespace Cert.SlabLayout

open Idealize.ShloMosaic Idealize.ShloMosaic.ValueIdx

variable {α : Type} {a b c : ℕ}

/-- An [a, b] array viewed [a, b, 1] reads, at (i, k, u), the operand at (i, k). -/
theorem shapeCast_ab_ab1_apply (x : (⟨2, ![a, b]⟩ : Shape).Idx → α)
    (h : (⟨2, ![a, b]⟩ : Shape).ShapeCasts ⟨3, ![a, b, 1]⟩) (i : Fin a) (k : Fin b) (u : Fin 1) :
    shapeCast ⟨3, ![a, b, 1]⟩ x h (ix3 i k u) = x (ix2 i k) :=
  shapeCast_apply x h _ _ (by
    have hu : u.val = 0 := by omega
    rw [Shape.rowMajor_val_three, Shape.rowMajor_val_two]
    show i.val * b + k.val = (i.val * b + k.val) * 1 + u.val
    rw [hu, Nat.mul_one, Nat.add_zero])

/-- An [a, b, 1] array broadcast to [a, b, c] reads, at (i, k, j), the operand at (i, k, 0). -/
theorem broadcastTo_ab1_abc_apply (x : (⟨3, ![a, b, 1]⟩ : Shape).Idx → α)
    (h : (⟨3, ![a, b, 1]⟩ : Shape).Broadcasts ⟨3, ![a, b, c]⟩) (i : Fin a) (k : Fin b) (j : Fin c) :
    broadcastTo ⟨3, ![a, b, c]⟩ x h (ix3 i k j) = x (ix3 i k (0 : Fin 1)) := by
  refine broadcastTo_apply x h (ix3 i k j) (ix3 i k (0 : Fin 1)) fun ax => ?_
  match ax with
  | ⟨0, _⟩ =>
    show i.val = if a = 1 then 0 else i.val
    split
    · have := i.isLt; omega
    · rfl
  | ⟨1, _⟩ =>
    show k.val = if b = 1 then 0 else k.val
    split
    · have := k.isLt; omega
    · rfl
  | ⟨2, _⟩ => rfl

/-- The source index of a reduction over the middle axis: the pair (i, j) with the row k inserted is (i, k, j). -/
theorem lift_mid (h : (⟨3, ![a, b, c]⟩ : Shape).Reduces [(1 : Fin 3)] ⟨2, ![a, c]⟩) (i : Fin a) (j : Fin c) (k : Fin b) :
    h.lift (ix2 i j) k = ix3 i k j := by
  funext d
  apply Fin.ext
  show h.liftVal (ix2 i j) k.val d = (ix3 i k j d).val
  unfold Shape.Reduces.liftVal
  match d with
  | ⟨0, _⟩ => rfl
  | ⟨1, _⟩ => rfl
  | ⟨2, _⟩ => rfl

/-- Over the extended reals a sum over the middle axis of an [a, b, c] array, from the zero accumulator, is at (i, j)
    the sum over the rows k of the entries (i, k, j). -/
theorem midSum_apply {φ : FTy} (src : FVec Ideal ⟨3, ![a, b, c]⟩ φ) (acc : BitVec φ.bits)
    (h : (⟨3, ![a, b, c]⟩ : Shape).Reduces [(1 : Fin 3)] ⟨2, ![a, c]⟩) (hφ : FKind.Formats φ)
    (hacc : acc = FKind.add.neutral φ hφ) (i : Fin a) (j : Fin c) :
    multiReduction .add [(1 : Fin 3)] ⟨2, ![a, c]⟩ src acc h hφ hacc (ix2 i j) = ∑ k : Fin b, src (ix3 i k j) := by
  refine (Ideal.multiReduction_add_single src acc h hφ hacc (ix2 i j)).trans ?_
  show ∑ k : Fin b, src (h.lift (ix2 i j) k) = _
  exact Finset.sum_congr rfl fun k _ => congrArg src (lift_mid h i j k)

/-- The source index of a reduction over the rows of an [a, b] array: i with the column k inserted is (i, k). -/
theorem lift_row (h : (⟨2, ![a, b]⟩ : Shape).Reduces [(1 : Fin 2)] ⟨1, ![a]⟩) (i : Fin a) (k : Fin b) :
    h.lift (ix1 i) k = ix2 i k := by
  funext d
  apply Fin.ext
  show h.liftVal (ix1 i) k.val d = (ix2 i k d).val
  unfold Shape.Reduces.liftVal
  match d with
  | ⟨0, _⟩ => rfl
  | ⟨1, _⟩ => rfl

/-- Over the extended reals a sum along the rows of an [a, b] array, from the zero accumulator, is at i the sum over k
    of the entries (i, k). -/
theorem rowSum_apply {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) := by
  refine (Ideal.multiReduction_add_single src acc h hφ hacc (ix1 i)).trans ?_
  show ∑ k : Fin b, src (h.lift (ix1 i) k) = _
  exact Finset.sum_congr rfl fun k _ => congrArg src (lift_row h i k)

/-- Over the extended reals a running maximum along the rows of an [a, b] array is at i the fold of max, from the
    accumulator's value, over the entries (i, k). -/
theorem rowMax_apply {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.maximumf.neutral φ hφ) (i : Fin a) :
    multiReduction .maximumf [(1 : Fin 2)] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  have e : (src ∘ h.lift (ix1 i)) = fun k => src (ix2 i k) := funext fun k => congrArg src (lift_row h i k)
  show (Finset.univ : Finset (Fin b)).fold max (Ideal.ofBits φ acc) (src ∘ h.lift (ix1 i)) = _
  rw [e]
  rfl

end Cert.SlabLayout

end
-- ==== Proof.Blocks.lean ====
/-
  What each kernel body computes on one block, entry by entry.

  A block holds two batch entries.  The first kernel stores, at (a, i, p), the scaled product of query row i with
  position row p: (Σ_d q[a,i,d]·pos[a,p,d])·(1/8).  The second kernel stores the attention weights and the output.  Its
  logits are the scaled query–key product plus the bias block, with -∞ where the mask word is not zero; each row has its
  maximum subtracted, is exponentiated and divided by its sum, which is the softmax of the row; the output at (a, i, d)
  is Σ_j weight[a,i,j]·v[a,j,d].

  Over the extended reals rounding to a narrower format is the identity, so the three products are plain sums of
  products.  Each is a product with batch axis 0 into the zero accumulator: its value at an entry is the sum over the
  contraction index, which has one axis, of the operands at indices that are read off the dimension numbers axis by
  axis (a batch axis and a free axis copy a coordinate of the output index, the contracted axis takes the summation
  variable).  The row maximum and the row sum are reductions along the last axis, laid back along the row by a cast
  [2, 512] → [2, 512, 1] and a broadcast to [2, 512, 512].
-/
import proofs.«154446_j13692355740492_2_alg».proof.Proof.Gen.KernelIdeal.Skeleton
import proofs.«154446_j13692355740492_2_alg».proof.Proof.Spec
import proofs.«154446_j13692355740492_2_alg».proof.Proof.LibLastAxis
import proofs.«154446_j13692355740492_2_alg».proof.Proof.LibSlabLayout

noncomputable section

namespace Cert.KernelIdeal.Blocks

open Cert.KernelIdeal Cert.KernelIdeal.Gen Idealize.ShloMosaic Idealize.ShloMosaic.ValueIdx

/-! ## The query–position product: [2, 512, 64] against [2, 1024, 64], batch axis 0, contracting the last axes -/

theorem qp_lhs_0 (j : S2x512x1024.Idx) (q : dot_S2x512x64_S2x1024x64_S2x512x1024_2_2_1_1_0_0.contr.Idx) :
    (dot_S2x512x64_S2x1024x64_S2x512x1024_2_2_1_1_0_0.lhsIdx j q 0).val = (j 0).val := by
  unfold DotDims.lhsIdx
  rw [dif_pos (show (0 : Fin S2x512x64.rank) ∈ dot_S2x512x64_S2x1024x64_S2x512x1024_2_2_1_1_0_0.lhsBatch by decide)]
  rfl
theorem qp_lhs_1 (j : S2x512x1024.Idx) (q : dot_S2x512x64_S2x1024x64_S2x512x1024_2_2_1_1_0_0.contr.Idx) :
    (dot_S2x512x64_S2x1024x64_S2x512x1024_2_2_1_1_0_0.lhsIdx j q 1).val = (j 1).val := by
  unfold DotDims.lhsIdx
  rw [dif_neg (show ¬(1 : Fin S2x512x64.rank) ∈ dot_S2x512x64_S2x1024x64_S2x512x1024_2_2_1_1_0_0.lhsBatch by decide),
    dif_pos (show (1 : Fin S2x512x64.rank) ∈ dot_S2x512x64_S2x1024x64_S2x512x1024_2_2_1_1_0_0.lhsNonContracting by decide)]
  rfl
theorem qp_lhs_2 (j : S2x512x1024.Idx) (q : dot_S2x512x64_S2x1024x64_S2x512x1024_2_2_1_1_0_0.contr.Idx) :
    (dot_S2x512x64_S2x1024x64_S2x512x1024_2_2_1_1_0_0.lhsIdx j q 2).val = (q ⟨0, by decide⟩).val :=
  dot_S2x512x64_S2x1024x64_S2x512x1024_2_2_1_1_0_0.lhsIdx_val_of_single rfl j q
theorem qp_rhs_0 (j : S2x512x1024.Idx) (q : dot_S2x512x64_S2x1024x64_S2x512x1024_2_2_1_1_0_0.contr.Idx) :
    (dot_S2x512x64_S2x1024x64_S2x512x1024_2_2_1_1_0_0.rhsIdx j q 0).val = (j 0).val := by
  unfold DotDims.rhsIdx
  rw [dif_pos (show (0 : Fin S2x1024x64.rank) ∈ dot_S2x512x64_S2x1024x64_S2x512x1024_2_2_1_1_0_0.rhsBatch by decide)]
  rfl
theorem qp_rhs_1 (j : S2x512x1024.Idx) (q : dot_S2x512x64_S2x1024x64_S2x512x1024_2_2_1_1_0_0.contr.Idx) :
    (dot_S2x512x64_S2x1024x64_S2x512x1024_2_2_1_1_0_0.rhsIdx j q 1).val = (j 2).val := by
  unfold DotDims.rhsIdx
  rw [dif_neg (show ¬(1 : Fin S2x1024x64.rank) ∈ dot_S2x512x64_S2x1024x64_S2x512x1024_2_2_1_1_0_0.rhsBatch by decide),
    dif_pos (show (1 : Fin S2x1024x64.rank) ∈ dot_S2x512x64_S2x1024x64_S2x512x1024_2_2_1_1_0_0.rhsNonContracting by decide)]
  rfl
theorem qp_rhs_2 (j : S2x512x1024.Idx) (q : dot_S2x512x64_S2x1024x64_S2x512x1024_2_2_1_1_0_0.contr.Idx) :
    (dot_S2x512x64_S2x1024x64_S2x512x1024_2_2_1_1_0_0.rhsIdx j q 2).val = (q ⟨0, by decide⟩).val :=
  dot_S2x512x64_S2x1024x64_S2x512x1024_2_2_1_1_0_0.rhsIdx_val_of_single rfl j q

/-- The product into the zero accumulator is, at (a, i, p), the sum over the 64 shared coordinates of the left operand at
    (a, i, d) times the right operand at (a, p, d). -/
theorem qp_matmul_apply (l : FVec Ideal S2x512x64 .bf16) (r : FVec Ideal S2x1024x64 .bf16) (a : Fin 2) (i : Fin 512) (p : Fin 1024) :
    matmul dot_S2x512x64_S2x1024x64_S2x512x1024_2_2_1_1_0_0 none l r (constant S2x512x1024 .f32 0x00000000#32) (ix3 a i p)
      = ∑ d : Fin 64, l (ix3 a i d) * r (ix3 a p d) := by
  refine (Ideal.matmul_constant_zero_apply dot_S2x512x64_S2x1024x64_S2x512x1024_2_2_1_1_0_0 none l r (ix3 a i p)).trans ?_
  rw [← Equiv.sum_comp (contrEquiv1 dot_S2x512x64_S2x1024x64_S2x512x1024_2_2_1_1_0_0 64 rfl rfl).symm]
  refine Finset.sum_congr rfl fun d _ => ?_
  have hd := contrEquiv1_symm_val dot_S2x512x64_S2x1024x64_S2x512x1024_2_2_1_1_0_0 64 rfl rfl d
  have el : dot_S2x512x64_S2x1024x64_S2x512x1024_2_2_1_1_0_0.lhsIdx (ix3 a i p)
      ((contrEquiv1 dot_S2x512x64_S2x1024x64_S2x512x1024_2_2_1_1_0_0 64 rfl rfl).symm d) = ix3 a i d :=
    funext fun ax => Fin.ext (by
      match ax with
      | ⟨0, _⟩ => exact qp_lhs_0 _ _
      | ⟨1, _⟩ => exact qp_lhs_1 _ _
      | ⟨2, _⟩ => exact (qp_lhs_2 _ _).trans hd)
  have er : dot_S2x512x64_S2x1024x64_S2x512x1024_2_2_1_1_0_0.rhsIdx (ix3 a i p)
      ((contrEquiv1 dot_S2x512x64_S2x1024x64_S2x512x1024_2_2_1_1_0_0 64 rfl rfl).symm d) = ix3 a p d :=
    funext fun ax => Fin.ext (by
      match ax with
      | ⟨0, _⟩ => exact qp_rhs_0 _ _
      | ⟨1, _⟩ => exact qp_rhs_1 _ _
      | ⟨2, _⟩ => exact (qp_rhs_2 _ _).trans hd)
  rw [el, er]

/-! ## The query–key product: [2, 512, 64] against [2, 512, 64], batch axis 0, contracting the last axes -/

theorem qk_lhs_0 (j : S2x512x512.Idx) (q : dot_S2x512x64_S2x512x64_S2x512x512_2_2_1_1_0_0.contr.Idx) :
    (dot_S2x512x64_S2x512x64_S2x512x512_2_2_1_1_0_0.lhsIdx j q 0).val = (j 0).val := by
  unfold DotDims.lhsIdx
  rw [dif_pos (show (0 : Fin S2x512x64.rank) ∈ dot_S2x512x64_S2x512x64_S2x512x512_2_2_1_1_0_0.lhsBatch by decide)]
  rfl
theorem qk_lhs_1 (j : S2x512x512.Idx) (q : dot_S2x512x64_S2x512x64_S2x512x512_2_2_1_1_0_0.contr.Idx) :
    (dot_S2x512x64_S2x512x64_S2x512x512_2_2_1_1_0_0.lhsIdx j q 1).val = (j 1).val := by
  unfold DotDims.lhsIdx
  rw [dif_neg (show ¬(1 : Fin S2x512x64.rank) ∈ dot_S2x512x64_S2x512x64_S2x512x512_2_2_1_1_0_0.lhsBatch by decide),
    dif_pos (show (1 : Fin S2x512x64.rank) ∈ dot_S2x512x64_S2x512x64_S2x512x512_2_2_1_1_0_0.lhsNonContracting by decide)]
  rfl
theorem qk_lhs_2 (j : S2x512x512.Idx) (q : dot_S2x512x64_S2x512x64_S2x512x512_2_2_1_1_0_0.contr.Idx) :
    (dot_S2x512x64_S2x512x64_S2x512x512_2_2_1_1_0_0.lhsIdx j q 2).val = (q ⟨0, by decide⟩).val :=
  dot_S2x512x64_S2x512x64_S2x512x512_2_2_1_1_0_0.lhsIdx_val_of_single rfl j q
theorem qk_rhs_0 (j : S2x512x512.Idx) (q : dot_S2x512x64_S2x512x64_S2x512x512_2_2_1_1_0_0.contr.Idx) :
    (dot_S2x512x64_S2x512x64_S2x512x512_2_2_1_1_0_0.rhsIdx j q 0).val = (j 0).val := by
  unfold DotDims.rhsIdx
  rw [dif_pos (show (0 : Fin S2x512x64.rank) ∈ dot_S2x512x64_S2x512x64_S2x512x512_2_2_1_1_0_0.rhsBatch by decide)]
  rfl
theorem qk_rhs_1 (j : S2x512x512.Idx) (q : dot_S2x512x64_S2x512x64_S2x512x512_2_2_1_1_0_0.contr.Idx) :
    (dot_S2x512x64_S2x512x64_S2x512x512_2_2_1_1_0_0.rhsIdx j q 1).val = (j 2).val := by
  unfold DotDims.rhsIdx
  rw [dif_neg (show ¬(1 : Fin S2x512x64.rank) ∈ dot_S2x512x64_S2x512x64_S2x512x512_2_2_1_1_0_0.rhsBatch by decide),
    dif_pos (show (1 : Fin S2x512x64.rank) ∈ dot_S2x512x64_S2x512x64_S2x512x512_2_2_1_1_0_0.rhsNonContracting by decide)]
  rfl
theorem qk_rhs_2 (j : S2x512x512.Idx) (q : dot_S2x512x64_S2x512x64_S2x512x512_2_2_1_1_0_0.contr.Idx) :
    (dot_S2x512x64_S2x512x64_S2x512x512_2_2_1_1_0_0.rhsIdx j q 2).val = (q ⟨0, by decide⟩).val :=
  dot_S2x512x64_S2x512x64_S2x512x512_2_2_1_1_0_0.rhsIdx_val_of_single rfl j q

/-- The product into the zero accumulator is, at (a, i, j), the sum over the 64 shared coordinates of the left operand at
    (a, i, d) times the right operand at (a, j, d). -/
theorem qk_matmul_apply (l : FVec Ideal S2x512x64 .bf16) (r : FVec Ideal S2x512x64 .bf16) (a : Fin 2) (i j : Fin 512) :
    matmul dot_S2x512x64_S2x512x64_S2x512x512_2_2_1_1_0_0 none l r (constant S2x512x512 .f32 0x00000000#32) (ix3 a i j)
      = ∑ d : Fin 64, l (ix3 a i d) * r (ix3 a j d) := by
  refine (Ideal.matmul_constant_zero_apply dot_S2x512x64_S2x512x64_S2x512x512_2_2_1_1_0_0 none l r (ix3 a i j)).trans ?_
  rw [← Equiv.sum_comp (contrEquiv1 dot_S2x512x64_S2x512x64_S2x512x512_2_2_1_1_0_0 64 rfl rfl).symm]
  refine Finset.sum_congr rfl fun d _ => ?_
  have hd := contrEquiv1_symm_val dot_S2x512x64_S2x512x64_S2x512x512_2_2_1_1_0_0 64 rfl rfl d
  have el : dot_S2x512x64_S2x512x64_S2x512x512_2_2_1_1_0_0.lhsIdx (ix3 a i j)
      ((contrEquiv1 dot_S2x512x64_S2x512x64_S2x512x512_2_2_1_1_0_0 64 rfl rfl).symm d) = ix3 a i d :=
    funext fun ax => Fin.ext (by
      match ax with
      | ⟨0, _⟩ => exact qk_lhs_0 _ _
      | ⟨1, _⟩ => exact qk_lhs_1 _ _
      | ⟨2, _⟩ => exact (qk_lhs_2 _ _).trans hd)
  have er : dot_S2x512x64_S2x512x64_S2x512x512_2_2_1_1_0_0.rhsIdx (ix3 a i j)
      ((contrEquiv1 dot_S2x512x64_S2x512x64_S2x512x512_2_2_1_1_0_0 64 rfl rfl).symm d) = ix3 a j d :=
    funext fun ax => Fin.ext (by
      match ax with
      | ⟨0, _⟩ => exact qk_rhs_0 _ _
      | ⟨1, _⟩ => exact qk_rhs_1 _ _
      | ⟨2, _⟩ => exact (qk_rhs_2 _ _).trans hd)
  rw [el, er]

/-! ## The weights–values product: [2, 512, 512] against [2, 512, 64], batch axis 0, the left's last axis against the right's middle axis -/

theorem av_lhs_0 (j : S2x512x64.Idx) (q : dot_S2x512x512_S2x512x64_S2x512x64_2_1_1_2_0_0.contr.Idx) :
    (dot_S2x512x512_S2x512x64_S2x512x64_2_1_1_2_0_0.lhsIdx j q 0).val = (j 0).val := by
  unfold DotDims.lhsIdx
  rw [dif_pos (show (0 : Fin S2x512x512.rank) ∈ dot_S2x512x512_S2x512x64_S2x512x64_2_1_1_2_0_0.lhsBatch by decide)]
  rfl
theorem av_lhs_1 (j : S2x512x64.Idx) (q : dot_S2x512x512_S2x512x64_S2x512x64_2_1_1_2_0_0.contr.Idx) :
    (dot_S2x512x512_S2x512x64_S2x512x64_2_1_1_2_0_0.lhsIdx j q 1).val = (j 1).val := by
  unfold DotDims.lhsIdx
  rw [dif_neg (show ¬(1 : Fin S2x512x512.rank) ∈ dot_S2x512x512_S2x512x64_S2x512x64_2_1_1_2_0_0.lhsBatch by decide),
    dif_pos (show (1 : Fin S2x512x512.rank) ∈ dot_S2x512x512_S2x512x64_S2x512x64_2_1_1_2_0_0.lhsNonContracting by decide)]
  rfl
theorem av_lhs_2 (j : S2x512x64.Idx) (q : dot_S2x512x512_S2x512x64_S2x512x64_2_1_1_2_0_0.contr.Idx) :
    (dot_S2x512x512_S2x512x64_S2x512x64_2_1_1_2_0_0.lhsIdx j q 2).val = (q ⟨0, by decide⟩).val :=
  dot_S2x512x512_S2x512x64_S2x512x64_2_1_1_2_0_0.lhsIdx_val_of_single rfl j q
theorem av_rhs_0 (j : S2x512x64.Idx) (q : dot_S2x512x512_S2x512x64_S2x512x64_2_1_1_2_0_0.contr.Idx) :
    (dot_S2x512x512_S2x512x64_S2x512x64_2_1_1_2_0_0.rhsIdx j q 0).val = (j 0).val := by
  unfold DotDims.rhsIdx
  rw [dif_pos (show (0 : Fin S2x512x64.rank) ∈ dot_S2x512x512_S2x512x64_S2x512x64_2_1_1_2_0_0.rhsBatch by decide)]
  rfl
theorem av_rhs_1 (j : S2x512x64.Idx) (q : dot_S2x512x512_S2x512x64_S2x512x64_2_1_1_2_0_0.contr.Idx) :
    (dot_S2x512x512_S2x512x64_S2x512x64_2_1_1_2_0_0.rhsIdx j q 1).val = (q ⟨0, by decide⟩).val :=
  dot_S2x512x512_S2x512x64_S2x512x64_2_1_1_2_0_0.rhsIdx_val_of_single rfl j q
theorem av_rhs_2 (j : S2x512x64.Idx) (q : dot_S2x512x512_S2x512x64_S2x512x64_2_1_1_2_0_0.contr.Idx) :
    (dot_S2x512x512_S2x512x64_S2x512x64_2_1_1_2_0_0.rhsIdx j q 2).val = (j 2).val := by
  unfold DotDims.rhsIdx
  rw [dif_neg (show ¬(2 : Fin S2x512x64.rank) ∈ dot_S2x512x512_S2x512x64_S2x512x64_2_1_1_2_0_0.rhsBatch by decide),
    dif_pos (show (2 : Fin S2x512x64.rank) ∈ dot_S2x512x512_S2x512x64_S2x512x64_2_1_1_2_0_0.rhsNonContracting by decide)]
  rfl

/-- The product into the zero accumulator is, at (a, i, e), the sum over the 512 columns d of the left operand at (a, i, d)
    times the right operand at (a, d, e). -/
theorem av_matmul_apply (l : FVec Ideal S2x512x512 .bf16) (r : FVec Ideal S2x512x64 .bf16) (a : Fin 2) (i : Fin 512) (e : Fin 64) :
    matmul dot_S2x512x512_S2x512x64_S2x512x64_2_1_1_2_0_0 none l r (constant S2x512x64 .f32 0x00000000#32) (ix3 a i e)
      = ∑ d : Fin 512, l (ix3 a i d) * r (ix3 a d e) := by
  refine (Ideal.matmul_constant_zero_apply dot_S2x512x512_S2x512x64_S2x512x64_2_1_1_2_0_0 none l r (ix3 a i e)).trans ?_
  rw [← Equiv.sum_comp (contrEquiv1 dot_S2x512x512_S2x512x64_S2x512x64_2_1_1_2_0_0 512 rfl rfl).symm]
  refine Finset.sum_congr rfl fun d _ => ?_
  have hd := contrEquiv1_symm_val dot_S2x512x512_S2x512x64_S2x512x64_2_1_1_2_0_0 512 rfl rfl d
  have el : dot_S2x512x512_S2x512x64_S2x512x64_2_1_1_2_0_0.lhsIdx (ix3 a i e)
      ((contrEquiv1 dot_S2x512x512_S2x512x64_S2x512x64_2_1_1_2_0_0 512 rfl rfl).symm d) = ix3 a i d :=
    funext fun ax => Fin.ext (by
      match ax with
      | ⟨0, _⟩ => exact av_lhs_0 _ _
      | ⟨1, _⟩ => exact av_lhs_1 _ _
      | ⟨2, _⟩ => exact (av_lhs_2 _ _).trans hd)
  have er : dot_S2x512x512_S2x512x64_S2x512x64_2_1_1_2_0_0.rhsIdx (ix3 a i e)
      ((contrEquiv1 dot_S2x512x512_S2x512x64_S2x512x64_2_1_1_2_0_0 512 rfl rfl).symm d) = ix3 a d e :=
    funext fun ax => Fin.ext (by
      match ax with
      | ⟨0, _⟩ => exact av_rhs_0 _ _
      | ⟨1, _⟩ => exact (av_rhs_1 _ _).trans hd
      | ⟨2, _⟩ => exact av_rhs_2 _ _)
  rw [el, er]

/-! ## The positional scores of one block -/

/-- The first kernel's stored value at (a, i, p): the scaled product of query row i with position row p. -/
theorem pos_block (x0 : Vec Ideal S2x512x64 .f32) (x1 : Vec Ideal S2x1024x64 .f32) (a : Fin 2) (i : Fin 512) (p : Fin 1024) :
    k0_pay1 (F := Ideal) x0 x1 (ix3 a i p) = Cert.Attn.posScore x0 x1 a i p :=
  congrArg (· * Cert.Attn.scale)
    (qp_matmul_apply (truncf .bf16 (x0 : FVec Ideal S2x512x64 .f32) bitsLt_bf16_f32)
      (truncf .bf16 (x1 : FVec Ideal S2x1024x64 .f32) bitsLt_bf16_f32) a i p)

/-! ## A row's maximum and a row's sum, laid back along the row -/

/-- The running maximum along the last axis from the word of -∞, viewed [2, 512, 1] and broadcast back to [2, 512, 512],
    reads at (a, i, j) the maximum of row (a, i), taken from -∞. -/
theorem rowMax_bcast_apply (s : FVec Ideal S2x512x512 .f32) (a : Fin 2) (i j : Fin 512) :
    broadcastTo S2x512x512
        (shapeCast S2x512x1
          (multiReduction .maximumf [2] S2x512 s 0xFF800000#32 reduces_S2x512x512_S2x512 (.inl rfl) rfl)
          shapeCasts_S2x512_S2x512x1)
        broadcasts_S2x512x1_S2x512x512 (ix3 a i j)
      = Cert.Attn.rowMax (fun j' => s (ix3 a i j')) := by
  refine (Cert.SlabLayout.broadcastTo_ab1_abc_apply _ broadcasts_S2x512x1_S2x512x512 a i j).trans ?_
  refine (Cert.SlabLayout.shapeCast_ab_ab1_apply _ shapeCasts_S2x512_S2x512x1 a i (0 : Fin 1)).trans ?_
  refine (Cert.LastAxis.lastMax_apply s 0xFF800000#32 reduces_S2x512x512_S2x512 (.inl rfl) rfl a i).trans ?_
  unfold Cert.Attn.rowMax
  rw [Cert.Attn.ofBits_neg_inf]

/-- The sum along the last axis from the zero word, viewed [2, 512, 1] and broadcast back to [2, 512, 512], reads at
    (a, i, j) the sum of row (a, i). -/
theorem rowSum_bcast_apply (t : FVec Ideal S2x512x512 .f32) (a : Fin 2) (i j : Fin 512) :
    broadcastTo S2x512x512
        (shapeCast S2x512x1
          (multiReduction .add [2] S2x512 t 0x00000000#32 reduces_S2x512x512_S2x512 (.inl rfl) rfl)
          shapeCasts_S2x512_S2x512x1)
        broadcasts_S2x512x1_S2x512x512 (ix3 a i j)
      = ∑ k : Fin 512, t (ix3 a i k) := by
  refine (Cert.SlabLayout.broadcastTo_ab1_abc_apply _ broadcasts_S2x512x1_S2x512x512 a i j).trans ?_
  refine (Cert.SlabLayout.shapeCast_ab_ab1_apply _ shapeCasts_S2x512_S2x512x1 a i (0 : Fin 1)).trans ?_
  exact Cert.LastAxis.lastSum_apply t 0x00000000#32 reduces_S2x512x512_S2x512 (.inl rfl) rfl a i

/-! ## The softmax of a block of logits -/

/-- Subtracting each row's maximum, exponentiating, and dividing by each row's sum is, at (a, i, j), the softmax of row
    (a, i) at column j. -/
theorem softmax_apply (s : FVec Ideal S2x512x512 .f32) (a : Fin 2) (i j : Fin 512) :
    divf
        (exp (subf s (broadcastTo S2x512x512
          (shapeCast S2x512x1
            (multiReduction .maximumf [2] S2x512 s 0xFF800000#32 reduces_S2x512x512_S2x512 (.inl rfl) rfl)
            shapeCasts_S2x512_S2x512x1)
          broadcasts_S2x512x1_S2x512x512)))
        (broadcastTo S2x512x512
          (shapeCast S2x512x1
            (multiReduction .add [2] S2x512
              (exp (subf s (broadcastTo S2x512x512
                (shapeCast S2x512x1
                  (multiReduction .maximumf [2] S2x512 s 0xFF800000#32 reduces_S2x512x512_S2x512 (.inl rfl) rfl)
                  shapeCasts_S2x512_S2x512x1)
                broadcasts_S2x512x1_S2x512x512)))
              0x00000000#32 reduces_S2x512x512_S2x512 (.inl rfl) rfl)
            shapeCasts_S2x512_S2x512x1)
          broadcasts_S2x512x1_S2x512x512) (ix3 a i j)
      = Cert.Attn.softmaxRow (fun j' => s (ix3 a i j')) j := by
  -- the exponentiated, shifted logit at a column of row (a, i)
  have hE : ∀ k : Fin 512,
      exp (subf s (broadcastTo S2x512x512
          (shapeCast S2x512x1
            (multiReduction .maximumf [2] S2x512 s 0xFF800000#32 reduces_S2x512x512_S2x512 (.inl rfl) rfl)
            shapeCasts_S2x512_S2x512x1)
          broadcasts_S2x512x1_S2x512x512)) (ix3 a i k)
        = Ideal.exp (s (ix3 a i k) - Cert.Attn.rowMax (fun j' => s (ix3 a i j'))) := fun k =>
    congrArg (fun m => Ideal.exp (s (ix3 a i k) - m)) (rowMax_bcast_apply s a i k)
  unfold Cert.Attn.softmaxRow
  refine (divf_apply _ _ _).trans ?_
  refine congrArg₂ Ideal.div (hE j) ?_
  refine (rowSum_bcast_apply _ a i j).trans ?_
  exact Finset.sum_congr rfl fun k _ => hE k

/-! ## The masked logits of one block -/

/-- The masking constant denotes -∞. -/
theorem neg_big_eq : Named.named (F := Ideal) κ "neg_big" (φ := .f32) 0xFF333332#32 = (⊥ : EReal) :=
  IdealRules.named_const.ideal_named_scalar _ _ _ _ rfl

/-- The scaled query–key product plus the bias, with -∞ where the mask word is not zero, is at (a, i, j) the masked row
    of logits at column j. -/
theorem logit_apply (x0 x1 : FVec Ideal S2x512x64 .f32) (x3 : FVec Ideal S2x512x512 .f32) (x4 : IVec S2x512x512 32)
    (a : Fin 2) (i j : Fin 512) :
    select (cmpi .ne x4 (constantI S2x512x512 32 0#32))
        (broadcast S2x512x512 (Named.named (F := Ideal) κ "neg_big" (φ := .f32) 0xFF333332#32))
        (addf
          (mulf
            (matmul dot_S2x512x64_S2x512x64_S2x512x512_2_2_1_1_0_0 none (truncf .bf16 x0 bitsLt_bf16_f32)
              (truncf .bf16 x1 bitsLt_bf16_f32) (constant S2x512x512 .f32 0x00000000#32))
            (broadcast S2x512x512 (Scalar.ofBits (F := Ideal) .f32 0x3E000000#32)))
          (shapeCast S2x512x512 x3 shapeCasts_S2x512x512_S2x512x512)) (ix3 a i j)
      = Cert.Attn.maskedRow (fun j' => IntOp.cmpi .ne (x4 (ix3 a i j')) 0#32) (fun j' => Cert.Attn.keyScore x0 x1 a i j')
          (fun j' => x3 (ix3 a i j')) j := by
  have hK : matmul dot_S2x512x64_S2x512x64_S2x512x512_2_2_1_1_0_0 none (truncf .bf16 x0 bitsLt_bf16_f32)
        (truncf .bf16 x1 bitsLt_bf16_f32) (constant S2x512x512 .f32 0x00000000#32) (ix3 a i j)
      = ∑ d : Fin 64, x0 (ix3 a i d) * x1 (ix3 a j d) :=
    qk_matmul_apply (truncf .bf16 x0 bitsLt_bf16_f32) (truncf .bf16 x1 bitsLt_bf16_f32) a i j
  have hB : shapeCast S2x512x512 x3 shapeCasts_S2x512x512_S2x512x512 (ix3 a i j) = x3 (ix3 a i j) :=
    congrFun (shapeCast_self x3 shapeCasts_S2x512x512_S2x512x512) (ix3 a i j)
  unfold Cert.Attn.maskedRow Cert.Attn.keyScore
  refine (select_apply _ _ _ _).trans ?_
  refine congrArg₂ (Scalar.select (IntOp.cmpi .ne (x4 (ix3 a i j)) 0#32)) neg_big_eq ?_
  exact congrArg₂ (· + ·) (congrArg (· * Cert.Attn.scale) hK) hB

/-! ## The attention weights and the output of one block -/

/-- The second kernel's first stored value at (a, i, j): the softmax, at column j, of row (a, i) of masked logits. -/
theorem attn_block (x0 x1 : Vec Ideal S2x512x64 .f32) (x3 : Vec Ideal S2x512x512 .f32) (x4 : Vec Ideal S2x512x512 .i32)
    (a : Fin 2) (i j : Fin 512) :
    k1_pay1 (F := Ideal) x0 x1 x3 x4 (ix3 a i j)
      = Cert.Attn.softmaxRow
          (Cert.Attn.maskedRow (fun j' => IntOp.cmpi .ne (x4 (ix3 a i j')) 0#32) (fun j' => Cert.Attn.keyScore x0 x1 a i j')
            (fun j' => x3 (ix3 a i j'))) j := by
  unfold k1_pay1
  refine (softmax_apply _ a i j).trans ?_
  exact congrArg (fun r => Cert.Attn.softmaxRow r j) (funext fun j' => logit_apply x0 x1 x3 x4 a i j')

/-- The second kernel's second stored value at (a, i, d): the weights of row (a, i) against column d of the values. -/
theorem out_block (x0 x1 x2 : Vec Ideal S2x512x64 .f32) (x3 : Vec Ideal S2x512x512 .f32) (x4 : Vec Ideal S2x512x512 .i32)
    (a : Fin 2) (i : Fin 512) (d : Fin 64) :
    k1_pay2 (F := Ideal) x0 x1 x3 x4 x2 (ix3 a i d)
      = ∑ j : Fin 512, k1_pay1 (F := Ideal) x0 x1 x3 x4 (ix3 a i j) * x2 (ix3 a j d) := by
  unfold k1_pay2
  generalize k1_pay1 (F := Ideal) x0 x1 x3 x4 = y
  exact av_matmul_apply (truncf .bf16 y bitsLt_bf16_f32) (truncf .bf16 (x2 : FVec Ideal S2x512x64 .f32) bitsLt_bf16_f32) a i d

end Cert.KernelIdeal.Blocks

end
-- ==== Proof.PosArray.lean ====
/-
  The array of positional scores the first kernel leaves.

  The first kernel runs over 64 grid points; point t reads the t-th block of two batch entries of the queries
  [2, 512, 64] and of the positions [2, 1024, 64] and writes the block [2, 512, 1024] of scaled products.  Row a of
  block t is batch entry 2t + a, so what point t writes back is block t of ONE function of the whole arrays, the
  positional scores; the 64 blocks tile the array, so the array ends holding that function.
-/
import proofs.«154446_j13692355740492_2_alg».proof.Proof.Gen.KernelIdeal.Frame
import proofs.«154446_j13692355740492_2_alg».proof.Proof.Spec
import proofs.«154446_j13692355740492_2_alg».proof.Proof.Blocks
import Idealize.ShloMosaic.Lib.Pipeline.Value

noncomputable section

namespace Cert.KernelIdeal.PosArray

open Cert.KernelIdeal Cert.KernelIdeal.Gen
open Idealize.ShloMosaic Idealize.ShloMosaic.TcCoe Idealize.SL.Sem Idealize.ShloMosaic.ValueIdx
open Idealize.ShloMosaic.Pipeline (Dat)
open Cert.Attn (brow posArr posScore)

variable (V : (c : Dev nD) → (b : Ref sig .tc) → Buf (Elt Ideal) ((c : Thread nD τ).loc b))

theorem hz : (![0, 0, 0] : Fin 3 → Nat) = fun _ => 0 := funext fun a => by fin_cases a <;> rfl

/-- The grid has 64 points. -/
theorem tlt (t : Fin cfg0.N) : t.val < 64 := by
  have h := t.isLt
  have hN : cfg0.N = 64 := N_0
  omega

/-- Every window's block index at point t is (t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- Entry (a, i, d) of the query window's block t is entry (2t + a, i, d) of the array. -/
theorem emb_q (t : Fin cfg0.N) (a : Fin 2) (i : Fin 512) (d : Fin 64) :
    ((cfg0.win 0).blk t).view.emb (ix3 a i d) = (ix3 (brow t.val (tlt t) a) i d : S128x512x64.Idx) := by
  obtain ⟨e0, e1, e2, -⟩ := idx_facts t
  funext ax; apply Fin.ext
  match ax with
  | ⟨0, _⟩ => show win0_0.index t (0 : Fin 3) * 2 + 1 * a.val = 2 * t.val + a.val; rw [e0]; omega
  | ⟨1, _⟩ => show win0_0.index t (1 : Fin 3) * 512 + 1 * i.val = i.val; rw [e1]; omega
  | ⟨2, _⟩ => show win0_0.index t (2 : Fin 3) * 64 + 1 * d.val = d.val; rw [e2]; omega

/-- Entry (a, p, d) of the position window's block t is entry (2t + a, p, d) of the array. -/
theorem emb_pos (t : Fin cfg0.N) (a : Fin 2) (p : Fin 1024) (d : Fin 64) :
    ((cfg0.win 1).blk t).view.emb (ix3 a p d) = (ix3 (brow t.val (tlt t) a) p d : S128x1024x64.Idx) := by
  obtain ⟨-, -, -, e0, e1, e2, -⟩ := idx_facts t
  funext ax; apply Fin.ext
  match ax with
  | ⟨0, _⟩ => show win0_1.index t (0 : Fin 3) * 2 + 1 * a.val = 2 * t.val + a.val; rw [e0]; omega
  | ⟨1, _⟩ => show win0_1.index t (1 : Fin 3) * 1024 + 1 * p.val = p.val; rw [e1]; omega
  | ⟨2, _⟩ => show win0_1.index t (2 : Fin 3) * 64 + 1 * d.val = d.val; rw [e2]; omega

/-- Entry (a, i, p) of the score window's block t is entry (2t + a, i, p) of the array. -/
theorem emb_out (t : Fin cfg0.N) (a : Fin 2) (i : Fin 512) (p : Fin 1024) :
    ((cfg0.win 2).blk t).view.emb (ix3 a i p) = (ix3 (brow t.val (tlt t) a) i p : S128x512x1024.Idx) := by
  obtain ⟨-, -, -, -, -, -, e0, e1, e2⟩ := idx_facts t
  funext ax; apply Fin.ext
  match ax with
  | ⟨0, _⟩ => show win0_2.index t (0 : Fin 3) * 2 + 1 * a.val = 2 * t.val + a.val; rw [e0]; omega
  | ⟨1, _⟩ => show win0_2.index t (1 : Fin 3) * 512 + 1 * i.val = i.val; rw [e1]; omega
  | ⟨2, _⟩ => show win0_2.index t (2 : Fin 3) * 1024 + 1 * p.val = p.val; rw [e2]; omega

/-- The query block at point t, entry by entry. -/
theorem read_q (c : Dev nD) (t : Fin cfg0.N) (a : Fin 2) (i : Fin 512) (d : Fin 64) :
    (iblk0 V c 0 t : S2x512x64.Idx → EReal) (ix3 a i d)
      = (V c main_arg0 : S128x512x64.Idx → EReal) (ix3 (brow t.val (tlt t) a) i d) := by
  unfold iblk0
  rw [View.read_apply]
  exact congrArg (V c main_arg0 : S128x512x64.Idx → EReal) (emb_q t a i d)

/-- The position block at point t, entry by entry. -/
theorem read_pos (c : Dev nD) (t : Fin cfg0.N) (a : Fin 2) (p : Fin 1024) (d : Fin 64) :
    (iblk0 V c 1 t : S2x1024x64.Idx → EReal) (ix3 a p d)
      = (V c main_arg3 : S128x1024x64.Idx → EReal) (ix3 (brow t.val (tlt t) a) p d) := by
  unfold iblk0
  rw [View.read_apply]
  exact congrArg (V c main_arg3 : S128x1024x64.Idx → EReal) (emb_pos t a p d)

/-- What point t writes back is block t of the positional scores of the arrays as the region finds them. -/
theorem flushed_eq (c : Dev nD) (t : Fin cfg0.N) :
    (dat0 V c).flushed 2 t = ((cfg0.win 2).blk t).view.read (Elt Ideal)
      (posArr (B := 128) (V c main_arg0 : S128x512x64.Idx → EReal) (V c main_arg3 : S128x1024x64.Idx → EReal)) := by
  show (cfg0.win 2).cut (grid0.coords t) ((dat0 V c).after 2 t) = _
  rw [after0_2]
  unfold out0_2
  rw [View.canon_unit_zero hz]
  simp only [View.ld_unit_zero (S := S2x512x64) hz, View.ld_unit_zero (S := S2x1024x64) hz]
  funext y
  obtain ⟨a, i, p, rfl⟩ : ∃ (a : Fin 2) (i : Fin 512) (p : Fin 1024), y = ix3 a i p := ⟨y 0, y 1, y 2, eq_ix3 y⟩
  rw [View.read_apply, emb_out t a i p, Cert.Attn.posArr_ix3]
  refine (Cert.KernelIdeal.Blocks.pos_block _ _ a i p).trans ?_
  unfold Cert.Attn.posScore
  refine congrArg (· * Cert.Attn.scale) (Finset.sum_congr rfl fun d _ => ?_)
  rw [read_q V c t a i d, read_pos V c t a p d]

/-- An index of the array is in point t's block iff each coordinate is in the block's range on its axis. -/
theorem mem_blk (t : Fin cfg0.N) (x : S128x512x1024.Idx) :
    x ∈ ((cfg0.win 2).blk t).view.set ↔ ∀ ax : Fin 3, win0_2.index t ax * S2x512x1024.size ax ≤ (x ax).val
      ∧ (x ax).val < win0_2.index t ax * S2x512x1024.size ax + S2x512x1024.size ax := by
  show x ∈ ((View.whole main_v0).slice (win0_2.rect t)).set ↔ _
  rw [View.set_slice_whole, Rect.mem_set_unit]
  exact Iff.rfl

/-- The 64 blocks cover the array: batch entry b is in block b / 2. -/
theorem cover (x : S128x512x1024.Idx) :
    ∃ t : Fin cfg0.N, (cfg0.win 2).flush t = true ∧ x ∈ ((cfg0.win 2).blk t).view.set := by
  have h0 : (x 0).val < 128 := (x 0).isLt
  have h1 : (x 1).val < 512 := (x 1).isLt
  have h2 : (x 2).val < 1024 := (x 2).isLt
  have hN : cfg0.N = 64 := N_0
  let t : Fin cfg0.N := ⟨(x 0).val / 2, by omega⟩
  obtain ⟨-, -, -, -, -, -, e0, e1, e2⟩ := idx_facts t
  refine ⟨t, flush0_2 t, ?_⟩
  rw [mem_blk]
  intro ax
  match ax with
  | ⟨0, _⟩ =>
    show win0_2.index t (0 : Fin 3) * 2 ≤ (x 0).val ∧ (x 0).val < win0_2.index t (0 : Fin 3) * 2 + 2
    rw [e0]; show (x 0).val / 2 * 2 ≤ (x 0).val ∧ (x 0).val < (x 0).val / 2 * 2 + 2; omega
  | ⟨1, _⟩ =>
    show win0_2.index t (1 : Fin 3) * 512 ≤ (x 1).val ∧ (x 1).val < win0_2.index t (1 : Fin 3) * 512 + 512
    rw [e1]; omega
  | ⟨2, _⟩ =>
    show win0_2.index t (2 : Fin 3) * 1024 ≤ (x 2).val ∧ (x 2).val < win0_2.index t (2 : Fin 3) * 1024 + 1024
    rw [e2]; omega

/-- The array after the first region: the positional scores of the queries and positions as the region finds them. -/
theorem final (c : Dev nD) :
    (dat0 V c).arrAt 2 cfg0.N
      = posArr (B := 128) (V c main_arg0 : S128x512x64.Idx → EReal) (V c main_arg3 : S128x1024x64.Idx → EReal) :=
  (dat0 V c).arrAt_eq_of_cover 2 _ (fun t _ => flushed_eq V c t) cover

end Cert.KernelIdeal.PosArray

end
-- ==== Proof.AttnArray.lean ====
/-
  The two arrays the second kernel leaves.

  The second kernel runs over 64 grid points; point t reads the t-th block of two batch entries of the queries, keys
  and values [2, 512, 64], of the bias [2, 512, 512] and of the mask [2, 512, 512] (as 32-bit words, nonzero where
  masked), and writes a block of attention weights [2, 512, 512] and of outputs [2, 512, 64].  Row a of block t is
  batch entry 2t + a.  When the bias array holds the diagonal stripe of the positional scores and the mask words are
  the mask bits widened, what point t writes back is block t of the attention weights and of the outputs of the whole
  arrays; the 64 blocks tile each array, so the arrays end holding those.
-/
import proofs.«154446_j13692355740492_2_alg».proof.Proof.Gen.KernelIdeal.Frame
import proofs.«154446_j13692355740492_2_alg».proof.Proof.Spec
import proofs.«154446_j13692355740492_2_alg».proof.Proof.Blocks
import Idealize.ShloMosaic.Lib.Pipeline.Value

noncomputable section

namespace Cert.Attn

/-- The softmax of a masked row depends on the mask, the scores and the bias entry by entry only. -/
theorem softmax_masked_congr {hit hit' : Fin 512 → BitVec 1} {score score' bias bias' : Fin 512 → EReal}
    (h1 : ∀ j, hit j = hit' j) (h2 : ∀ j, score j = score' j) (h3 : ∀ j, bias j = bias' j) (j : Fin 512) :
    softmaxRow (maskedRow hit score bias) j = softmaxRow (maskedRow hit' score' bias') j := by
  obtain rfl : hit = hit' := funext h1
  obtain rfl : score = score' := funext h2
  obtain rfl : bias = bias' := funext h3
  rfl

/-- A mask bit widened to a word is nonzero exactly when the bit is set. -/
theorem ne_zero_widen (b : BitVec 1) : Idealize.ShloMosaic.IntOp.cmpi .ne (b.setWidth 32) 0#32 = b := by
  rcases BitVec.eq_zero_or_eq_one b with h | h <;> subst h <;> decide

end Cert.Attn

namespace Cert.KernelIdeal.AttnArray

open Cert.KernelIdeal Cert.KernelIdeal.Gen
open Idealize.ShloMosaic Idealize.ShloMosaic.TcCoe Idealize.SL.Sem Idealize.ShloMosaic.ValueIdx
open Idealize.ShloMosaic.Pipeline (Dat)
open Cert.Attn (brow posScore keyScore diag attnArr outArr attnAt outAt)

variable (V : (c : Dev nD) → (b : Ref sig .tc) → Buf (Elt Ideal) ((c : Thread nD τ).loc b))

theorem hz : (![0, 0, 0] : Fin 3 → Nat) = fun _ => 0 := funext fun a => by fin_cases a <;> rfl

/-- The grid has 64 points. -/
theorem tlt (t : Fin cfg1.N) : t.val < 64 := by
  have h := t.isLt
  have hN : cfg1.N = 64 := N_1
  omega

/-- Every window's block index at point t is (t, 0, 0). -/
theorem idx_facts : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0
    ∧ win1_3.index t (0 : Fin 3) = t.val ∧ win1_3.index t (1 : Fin 3) = 0 ∧ win1_3.index t (2 : Fin 3) = 0
    ∧ win1_4.index t (0 : Fin 3) = t.val ∧ win1_4.index t (1 : Fin 3) = 0 ∧ win1_4.index t (2 : Fin 3) = 0
    ∧ win1_5.index t (0 : Fin 3) = t.val ∧ win1_5.index t (1 : Fin 3) = 0 ∧ win1_5.index t (2 : Fin 3) = 0
    ∧ win1_6.index t (0 : Fin 3) = t.val ∧ win1_6.index t (1 : Fin 3) = 0 ∧ win1_6.index t (2 : Fin 3) = 0 ∧ True :=
  (by decide +kernel : ∀ t : Fin grid1.N, _)

/-- Entry (a, i, d) of the query window's block t is entry (2t + a, i, d) of the array. -/
theorem emb_q (t : Fin cfg1.N) (a : Fin 2) (i : Fin 512) (d : Fin 64) :
    ((cfg1.win 0).blk t).view.emb (ix3 a i d) = (ix3 (brow t.val (tlt t) a) i d : S128x512x64.Idx) := by
  obtain ⟨e0, e1, e2, -⟩ := idx_facts t
  funext ax; apply Fin.ext
  match ax with
  | ⟨0, _⟩ => show win1_0.index t (0 : Fin 3) * 2 + 1 * a.val = 2 * t.val + a.val; rw [e0]; omega
  | ⟨1, _⟩ => show win1_0.index t (1 : Fin 3) * 512 + 1 * i.val = i.val; rw [e1]; omega
  | ⟨2, _⟩ => show win1_0.index t (2 : Fin 3) * 64 + 1 * d.val = d.val; rw [e2]; omega

/-- Entry (a, i, d) of the key window's block t is entry (2t + a, i, d) of the array. -/
theorem emb_k (t : Fin cfg1.N) (a : Fin 2) (i : Fin 512) (d : Fin 64) :
    ((cfg1.win 1).blk t).view.emb (ix3 a i d) = (ix3 (brow t.val (tlt t) a) i d : S128x512x64.Idx) := by
  obtain ⟨-, -, -, e0, e1, e2, -⟩ := idx_facts t
  funext ax; apply Fin.ext
  match ax with
  | ⟨0, _⟩ => show win1_1.index t (0 : Fin 3) * 2 + 1 * a.val = 2 * t.val + a.val; rw [e0]; omega
  | ⟨1, _⟩ => show win1_1.index t (1 : Fin 3) * 512 + 1 * i.val = i.val; rw [e1]; omega
  | ⟨2, _⟩ => show win1_1.index t (2 : Fin 3) * 64 + 1 * d.val = d.val; rw [e2]; omega

/-- Entry (a, i, d) of the value window's block t is entry (2t + a, i, d) of the array. -/
theorem emb_v (t : Fin cfg1.N) (a : Fin 2) (i : Fin 512) (d : Fin 64) :
    ((cfg1.win 2).blk t).view.emb (ix3 a i d) = (ix3 (brow t.val (tlt t) a) i d : S128x512x64.Idx) := by
  obtain ⟨-, -, -, -, -, -, e0, e1, e2, -⟩ := idx_facts t
  funext ax; apply Fin.ext
  match ax with
  | ⟨0, _⟩ => show win1_2.index t (0 : Fin 3) * 2 + 1 * a.val = 2 * t.val + a.val; rw [e0]; omega
  | ⟨1, _⟩ => show win1_2.index t (1 : Fin 3) * 512 + 1 * i.val = i.val; rw [e1]; omega
  | ⟨2, _⟩ => show win1_2.index t (2 : Fin 3) * 64 + 1 * d.val = d.val; rw [e2]; omega

/-- Entry (a, i, j) of the bias window's block t is entry (2t + a, i, j) of the array. -/
theorem emb_bias (t : Fin cfg1.N) (a : Fin 2) (i : Fin 512) (j : Fin 512) :
    ((cfg1.win 3).blk t).view.emb (ix3 a i j) = (ix3 (brow t.val (tlt t) a) i j : S128x512x512.Idx) := by
  obtain ⟨-, -, -, -, -, -, -, -, -, e0, e1, e2, -⟩ := idx_facts t
  funext ax; apply Fin.ext
  match ax with
  | ⟨0, _⟩ => show win1_3.index t (0 : Fin 3) * 2 + 1 * a.val = 2 * t.val + a.val; rw [e0]; omega
  | ⟨1, _⟩ => show win1_3.index t (1 : Fin 3) * 512 + 1 * i.val = i.val; rw [e1]; omega
  | ⟨2, _⟩ => show win1_3.index t (2 : Fin 3) * 512 + 1 * j.val = j.val; rw [e2]; omega

/-- Entry (a, i, j) of the mask window's block t is entry (2t + a, i, j) of the array. -/
theorem emb_mask (t : Fin cfg1.N) (a : Fin 2) (i : Fin 512) (j : Fin 512) :
    ((cfg1.win 4).blk t).view.emb (ix3 a i j) = (ix3 (brow t.val (tlt t) a) i j : S128x512x512.Idx) := by
  obtain ⟨-, -, -, -, -, -, -, -, -, -, -, -, e0, e1, e2, -⟩ := idx_facts t
  funext ax; apply Fin.ext
  match ax with
  | ⟨0, _⟩ => show win1_4.index t (0 : Fin 3) * 2 + 1 * a.val = 2 * t.val + a.val; rw [e0]; omega
  | ⟨1, _⟩ => show win1_4.index t (1 : Fin 3) * 512 + 1 * i.val = i.val; rw [e1]; omega
  | ⟨2, _⟩ => show win1_4.index t (2 : Fin 3) * 512 + 1 * j.val = j.val; rw [e2]; omega

/-- Entry (a, i, d) of the output window's block t is entry (2t + a, i, d) of the array. -/
theorem emb_out (t : Fin cfg1.N) (a : Fin 2) (i : Fin 512) (d : Fin 64) :
    ((cfg1.win 5).blk t).view.emb (ix3 a i d) = (ix3 (brow t.val (tlt t) a) i d : S128x512x64.Idx) := by
  obtain ⟨-, -, -, -, -, -, -, -, -, -, -, -, -, -, -, e0, e1, e2, -⟩ := idx_facts t
  funext ax; apply Fin.ext
  match ax with
  | ⟨0, _⟩ => show win1_5.index t (0 : Fin 3) * 2 + 1 * a.val = 2 * t.val + a.val; rw [e0]; omega
  | ⟨1, _⟩ => show win1_5.index t (1 : Fin 3) * 512 + 1 * i.val = i.val; rw [e1]; omega
  | ⟨2, _⟩ => show win1_5.index t (2 : Fin 3) * 64 + 1 * d.val = d.val; rw [e2]; omega

/-- Entry (a, i, j) of the attention window's block t is entry (2t + a, i, j) of the array. -/
theorem emb_attn (t : Fin cfg1.N) (a : Fin 2) (i : Fin 512) (j : Fin 512) :
    ((cfg1.win 6).blk t).view.emb (ix3 a i j) = (ix3 (brow t.val (tlt t) a) i j : S128x512x512.Idx) := by
  obtain ⟨-, -, -, -, -, -, -, -, -, -, -, -, -, -, -, -, -, -, e0, e1, e2, -⟩ := idx_facts t
  funext ax; apply Fin.ext
  match ax with
  | ⟨0, _⟩ => show win1_6.index t (0 : Fin 3) * 2 + 1 * a.val = 2 * t.val + a.val; rw [e0]; omega
  | ⟨1, _⟩ => show win1_6.index t (1 : Fin 3) * 512 + 1 * i.val = i.val; rw [e1]; omega
  | ⟨2, _⟩ => show win1_6.index t (2 : Fin 3) * 512 + 1 * j.val = j.val; rw [e2]; omega

/-- The query block at point t, entry by entry. -/
theorem read_q (c : Dev nD) (t : Fin cfg1.N) (a : Fin 2) (i : Fin 512) (d : Fin 64) :
    (iblk1 V c 0 t : S2x512x64.Idx → EReal) (ix3 a i d)
      = (V c main_arg0 : S128x512x64.Idx → EReal) (ix3 (brow t.val (tlt t) a) i d) := by
  unfold iblk1
  rw [View.read_apply]
  exact congrArg (V c main_arg0 : S128x512x64.Idx → EReal) (emb_q t a i d)

/-- The key block at point t, entry by entry. -/
theorem read_k (c : Dev nD) (t : Fin cfg1.N) (a : Fin 2) (i : Fin 512) (d : Fin 64) :
    (iblk1 V c 1 t : S2x512x64.Idx → EReal) (ix3 a i d)
      = (V c main_arg1 : S128x512x64.Idx → EReal) (ix3 (brow t.val (tlt t) a) i d) := by
  unfold iblk1
  rw [View.read_apply]
  exact congrArg (V c main_arg1 : S128x512x64.Idx → EReal) (emb_k t a i d)

/-- The value block at point t, entry by entry. -/
theorem read_v (c : Dev nD) (t : Fin cfg1.N) (a : Fin 2) (i : Fin 512) (d : Fin 64) :
    (iblk1 V c 2 t : S2x512x64.Idx → EReal) (ix3 a i d)
      = (V c main_arg2 : S128x512x64.Idx → EReal) (ix3 (brow t.val (tlt t) a) i d) := by
  unfold iblk1
  rw [View.read_apply]
  exact congrArg (V c main_arg2 : S128x512x64.Idx → EReal) (emb_v t a i d)

/-- The bias block at point t, entry by entry. -/
theorem read_bias (c : Dev nD) (t : Fin cfg1.N) (a : Fin 2) (i : Fin 512) (j : Fin 512) :
    (iblk1 V c 3 t : S2x512x512.Idx → EReal) (ix3 a i j)
      = (V c main_v4 : S128x512x512.Idx → EReal) (ix3 (brow t.val (tlt t) a) i j) := by
  unfold iblk1
  rw [View.read_apply]
  exact congrArg (V c main_v4 : S128x512x512.Idx → EReal) (emb_bias t a i j)

/-- The mask block at point t, entry by entry. -/
theorem read_mask (c : Dev nD) (t : Fin cfg1.N) (a : Fin 2) (i : Fin 512) (j : Fin 512) :
    (iblk1 V c 4 t : S2x512x512.Idx → BitVec 32) (ix3 a i j)
      = (V c main_v5 : S128x512x512.Idx → BitVec 32) (ix3 (brow t.val (tlt t) a) i j) := by
  unfold iblk1
  rw [View.read_apply]
  exact congrArg (V c main_v5 : S128x512x512.Idx → BitVec 32) (emb_mask t a i j)

/-- The hypotheses on the region's entry contents: the bias array is the diagonal stripe of the positional scores of the
    queries with some positions `pos`, and the mask words are the bits of `mask` widened. -/
structure Entry (c : Dev nD) (pos : S128x1024x64.Idx → EReal) (mask : S128x512x512.Idx → BitVec 1) : Prop where
  bias : ∀ (b : Fin 128) (i j : Fin 512), (V c main_v4 : S128x512x512.Idx → EReal) (ix3 b i j)
      = posScore (B := 128) (V c main_arg0 : S128x512x64.Idx → EReal) pos b i (diag i j)
  mask : ∀ x : S128x512x512.Idx, (V c main_v5 : S128x512x512.Idx → BitVec 32) x = (mask x).setWidth 32

variable {V}

/-- The key scores of block t are the key scores of the whole arrays at batch entry 2t + a. -/
theorem key_block (c : Dev nD) (t : Fin cfg1.N) (a : Fin 2) (i j : Fin 512) :
    keyScore (B := 2) (iblk1 V c 0 t : S2x512x64.Idx → EReal) (iblk1 V c 1 t : S2x512x64.Idx → EReal) a i j
      = keyScore (B := 128) (V c main_arg0 : S128x512x64.Idx → EReal) (V c main_arg1 : S128x512x64.Idx → EReal) (brow t.val (tlt t) a) i j := by
  unfold Cert.Attn.keyScore
  refine congrArg (· * Cert.Attn.scale) (Finset.sum_congr rfl fun d _ => ?_)
  rw [read_q V c t a i d, read_k V c t a j d]

/-- One entry of what the body computes for the attention window at point t. -/
theorem attn_entry (c : Dev nD) {pos : S128x1024x64.Idx → EReal} {mask : S128x512x512.Idx → BitVec 1} (hE : Entry V c pos mask)
    (t : Fin cfg1.N) (a : Fin 2) (i j : Fin 512) :
    k1_pay1 (F := Ideal) (iblk1 V c 0 t) (iblk1 V c 1 t) (iblk1 V c 3 t) (iblk1 V c 4 t) (ix3 a i j)
      = attnAt (B := 128) (V c main_arg0 : S128x512x64.Idx → EReal) (V c main_arg1 : S128x512x64.Idx → EReal) pos mask (brow t.val (tlt t) a) i j := by
  refine (Cert.KernelIdeal.Blocks.attn_block _ _ _ _ a i j).trans ?_
  show _ = Cert.Attn.softmaxRow (Cert.Attn.maskedRow (fun j' => mask (ix3 (brow t.val (tlt t) a) i j'))
    (fun j' => keyScore (B := 128) (V c main_arg0 : S128x512x64.Idx → EReal) (V c main_arg1 : S128x512x64.Idx → EReal) (brow t.val (tlt t) a) i j')
    (fun j' => posScore (B := 128) (V c main_arg0 : S128x512x64.Idx → EReal) pos (brow t.val (tlt t) a) i (diag i j'))) j
  refine Cert.Attn.softmax_masked_congr (fun j' => ?_) (fun j' => key_block c t a i j') (fun j' => ?_) j
  · rw [read_mask V c t a i j', hE.mask]
    exact Cert.Attn.ne_zero_widen _
  · rw [read_bias V c t a i j', hE.bias]

/-- What point t writes back to the attention window is block t of the attention weights. -/
theorem flushed_attn (c : Dev nD) {pos : S128x1024x64.Idx → EReal} {mask : S128x512x512.Idx → BitVec 1} (hE : Entry V c pos mask)
    (t : Fin cfg1.N) :
    (dat1 V c).flushed 6 t = ((cfg1.win 6).blk t).view.read (Elt Ideal)
      (attnArr (B := 128) (V c main_arg0 : S128x512x64.Idx → EReal) (V c main_arg1 : S128x512x64.Idx → EReal) pos mask) := by
  show (cfg1.win 6).cut (grid1.coords t) ((dat1 V c).after 6 t) = _
  rw [after1_6]
  unfold out1_6
  rw [View.canon_unit_zero hz]
  simp only [View.ld_unit_zero (S := S2x512x64) hz, View.ld_unit_zero (S := S2x512x512) hz]
  funext y
  obtain ⟨a, i, j, rfl⟩ : ∃ (a : Fin 2) (i j : Fin 512), y = ix3 a i j := ⟨y 0, y 1, y 2, eq_ix3 y⟩
  rw [View.read_apply, emb_attn t a i j, Cert.Attn.attnArr_ix3]
  exact attn_entry c hE t a i j

/-- What point t writes back to the output window is block t of the outputs. -/
theorem flushed_out (c : Dev nD) {pos : S128x1024x64.Idx → EReal} {mask : S128x512x512.Idx → BitVec 1} (hE : Entry V c pos mask)
    (t : Fin cfg1.N) :
    (dat1 V c).flushed 5 t = ((cfg1.win 5).blk t).view.read (Elt Ideal)
      (outArr (B := 128) (V c main_arg0 : S128x512x64.Idx → EReal) (V c main_arg1 : S128x512x64.Idx → EReal)
        (V c main_arg2 : S128x512x64.Idx → EReal) pos mask) := by
  show (cfg1.win 5).cut (grid1.coords t) ((dat1 V c).after 5 t) = _
  rw [after1_5]
  unfold out1_5
  rw [View.canon_unit_zero hz]
  simp only [View.ld_unit_zero (S := S2x512x64) hz, View.ld_unit_zero (S := S2x512x512) hz]
  funext y
  obtain ⟨a, i, d, rfl⟩ : ∃ (a : Fin 2) (i : Fin 512) (d : Fin 64), y = ix3 a i d := ⟨y 0, y 1, y 2, eq_ix3 y⟩
  rw [View.read_apply, emb_out t a i d, Cert.Attn.outArr_ix3]
  refine (Cert.KernelIdeal.Blocks.out_block _ _ _ _ _ a i d).trans ?_
  unfold Cert.Attn.outAt
  refine Finset.sum_congr rfl fun j _ => ?_
  rw [attn_entry c hE t a i j, read_v V c t a j d]

/-- An index of the attention array is in point t's block iff each coordinate is in the block's range on its axis. -/
theorem mem_blk_attn (t : Fin cfg1.N) (x : S128x512x512.Idx) :
    x ∈ ((cfg1.win 6).blk t).view.set ↔ ∀ ax : Fin 3, win1_6.index t ax * S2x512x512.size ax ≤ (x ax).val
      ∧ (x ax).val < win1_6.index t ax * S2x512x512.size ax + S2x512x512.size ax := by
  show x ∈ ((View.whole main_v6_1).slice (win1_6.rect t)).set ↔ _
  rw [View.set_slice_whole, Rect.mem_set_unit]
  exact Iff.rfl

/-- The same for the output array. -/
theorem mem_blk_out (t : Fin cfg1.N) (x : S128x512x64.Idx) :
    x ∈ ((cfg1.win 5).blk t).view.set ↔ ∀ ax : Fin 3, win1_5.index t ax * S2x512x64.size ax ≤ (x ax).val
      ∧ (x ax).val < win1_5.index t ax * S2x512x64.size ax + S2x512x64.size ax := by
  show x ∈ ((View.whole main_v6_0).slice (win1_5.rect t)).set ↔ _
  rw [View.set_slice_whole, Rect.mem_set_unit]
  exact Iff.rfl

/-- The 64 blocks cover the attention array: batch entry b is in block b / 2. -/
theorem cover_attn (x : S128x512x512.Idx) :
    ∃ t : Fin cfg1.N, (cfg1.win 6).flush t = true ∧ x ∈ ((cfg1.win 6).blk t).view.set := by
  have h0 : (x 0).val < 128 := (x 0).isLt
  have h1 : (x 1).val < 512 := (x 1).isLt
  have h2 : (x 2).val < 512 := (x 2).isLt
  have hN : cfg1.N = 64 := N_1
  let t : Fin cfg1.N := ⟨(x 0).val / 2, by omega⟩
  obtain ⟨-, -, -, -, -, -, -, -, -, -, -, -, -, -, -, -, -, -, e0, e1, e2, -⟩ := idx_facts t
  refine ⟨t, flush1_6 t, ?_⟩
  rw [mem_blk_attn]
  intro ax
  match ax with
  | ⟨0, _⟩ =>
    show win1_6.index t (0 : Fin 3) * 2 ≤ (x 0).val ∧ (x 0).val < win1_6.index t (0 : Fin 3) * 2 + 2
    rw [e0]; show (x 0).val / 2 * 2 ≤ (x 0).val ∧ (x 0).val < (x 0).val / 2 * 2 + 2; omega
  | ⟨1, _⟩ =>
    show win1_6.index t (1 : Fin 3) * 512 ≤ (x 1).val ∧ (x 1).val < win1_6.index t (1 : Fin 3) * 512 + 512
    rw [e1]; omega
  | ⟨2, _⟩ =>
    show win1_6.index t (2 : Fin 3) * 512 ≤ (x 2).val ∧ (x 2).val < win1_6.index t (2 : Fin 3) * 512 + 512
    rw [e2]; omega

/-- The 64 blocks cover the output array. -/
theorem cover_out (x : S128x512x64.Idx) :
    ∃ t : Fin cfg1.N, (cfg1.win 5).flush t = true ∧ x ∈ ((cfg1.win 5).blk t).view.set := by
  have h0 : (x 0).val < 128 := (x 0).isLt
  have h1 : (x 1).val < 512 := (x 1).isLt
  have h2 : (x 2).val < 64 := (x 2).isLt
  have hN : cfg1.N = 64 := N_1
  let t : Fin cfg1.N := ⟨(x 0).val / 2, by omega⟩
  obtain ⟨-, -, -, -, -, -, -, -, -, -, -, -, -, -, -, e0, e1, e2, -⟩ := idx_facts t
  refine ⟨t, flush1_5 t, ?_⟩
  rw [mem_blk_out]
  intro ax
  match ax with
  | ⟨0, _⟩ =>
    show win1_5.index t (0 : Fin 3) * 2 ≤ (x 0).val ∧ (x 0).val < win1_5.index t (0 : Fin 3) * 2 + 2
    rw [e0]; show (x 0).val / 2 * 2 ≤ (x 0).val ∧ (x 0).val < (x 0).val / 2 * 2 + 2; omega
  | ⟨1, _⟩ =>
    show win1_5.index t (1 : Fin 3) * 512 ≤ (x 1).val ∧ (x 1).val < win1_5.index t (1 : Fin 3) * 512 + 512
    rw [e1]; omega
  | ⟨2, _⟩ =>
    show win1_5.index t (2 : Fin 3) * 64 ≤ (x 2).val ∧ (x 2).val < win1_5.index t (2 : Fin 3) * 64 + 64
    rw [e2]; omega

/-- The attention array after the second region. -/
theorem final_attn (c : Dev nD) {pos : S128x1024x64.Idx → EReal} {mask : S128x512x512.Idx → BitVec 1} (hE : Entry V c pos mask) :
    (dat1 V c).arrAt 6 cfg1.N
      = attnArr (B := 128) (V c main_arg0 : S128x512x64.Idx → EReal) (V c main_arg1 : S128x512x64.Idx → EReal) pos mask :=
  (dat1 V c).arrAt_eq_of_cover 6 _ (fun t _ => flushed_attn c hE t) cover_attn

/-- The output array after the second region. -/
theorem final_out (c : Dev nD) {pos : S128x1024x64.Idx → EReal} {mask : S128x512x512.Idx → BitVec 1} (hE : Entry V c pos mask) :
    (dat1 V c).arrAt 5 cfg1.N
      = outArr (B := 128) (V c main_arg0 : S128x512x64.Idx → EReal) (V c main_arg1 : S128x512x64.Idx → EReal)
          (V c main_arg2 : S128x512x64.Idx → EReal) pos mask :=
  (dat1 V c).arrAt_eq_of_cover 5 _ (fun t _ => flushed_out c hE t) cover_out

end Cert.KernelIdeal.AttnArray

end
-- ==== Proof.Skew.lean ====
/-
  The diagonal stripe read off a flat buffer.

  The positional scores form an array P of shape [128, 512, 1024].  Flattening its last two axes, appending 512
  entries to every batch row, and re-cutting the row in lines of 1025 entries moves line i one place to the left per
  line: entry (i, j) of the re-cut array sits at flat position i·1025 + j = i·1024 + (i + j), and for i, j < 512 that
  is inside the unpadded part (i·1025 + j ≤ 524286) and i + j < 1024, so it is P[b, i, i + j].  Keeping the first
  512 columns gives the stripe bias[b, i, j] = P[b, i, i + j].
-/
import proofs.«154446_j13692355740492_2_alg».proof.Proof.Spec
import Idealize.ShloMosaic.Lib.Pipeline.Value
import Idealize.ShloMosaic.Lib.KernelVsHost

noncomputable section

namespace Cert.Attn

open Idealize.ShloMosaic Idealize.ShloMosaic.ValueIdx

variable {α : Type}

/-- Flatten, pad each batch row by 512, re-cut in lines of 1025, keep 512 columns: the entry (b, i, j) is the
    operand's entry (b, i, i + j). -/
theorem skew_apply (x : (⟨3, ![128, 512, 1024]⟩ : Shape).Idx → α) (v : (⟨0, ![]⟩ : Shape).Idx → α)
    (h1 : (⟨3, ![128, 512, 1024]⟩ : Shape).ShapeCasts ⟨2, ![128, 524288]⟩)
    (h2 : (⟨2, ![128, 524288]⟩ : Shape).Pads (![0, 0] : Fin 2 → Nat) ![0, 512] ![0, 0] ⟨2, ![128, 524800]⟩)
    (hu : 0 < (⟨0, ![]⟩ : Shape).numel)
    (h3 : (⟨2, ![128, 524800]⟩ : Shape).ShapeCasts ⟨3, ![128, 512, 1025]⟩)
    (h4 : (⟨3, ![128, 512, 1025]⟩ : Shape).Slices ![0, 0, 0] ⟨3, ![128, 512, 512]⟩)
    (b : Fin 128) (i j : Fin 512) :
    extractStridedSlice (⟨3, ![128, 512, 512]⟩ : Shape) ![0, 0, 0]
        (shapeCast (⟨3, ![128, 512, 1025]⟩ : Shape)
          (pad (⟨2, ![128, 524800]⟩ : Shape) ![0, 0] ![0, 512] ![0, 0] (shapeCast (⟨2, ![128, 524288]⟩ : Shape) x h1) v h2 hu) h3) h4
        (ix3 b i j)
      = x (ix3 b i (diag i j)) := by
  have hi := i.isLt
  have hj := j.isLt
  have hb := b.isLt
  refine (extractStridedSlice_apply _ _ h4 (ix3 b i j) (ix3 b i (⟨j.val, by omega⟩ : Fin 1025)) (fun a => ?_)).trans ?_
  · match a with
    | ⟨0, _⟩ => show b.val = 0 + b.val; omega
    | ⟨1, _⟩ => show i.val = 0 + i.val; omega
    | ⟨2, _⟩ => show j.val = 0 + j.val; omega
  refine (shapeCast_apply _ h3 _ (ix2 b (⟨i.val * 1025 + j.val, by omega⟩ : Fin 524800)) ?_).trans ?_
  · rw [Shape.rowMajor_val_two, Shape.rowMajor_val_three]
    show b.val * 524800 + (i.val * 1025 + j.val) = (b.val * 512 + i.val) * 1025 + j.val
    omega
  refine (pad_apply_of_inside _ _ _ _ v h2 hu _ (ix2 b (⟨i.val * 1025 + j.val, by omega⟩ : Fin 524288)) (fun a => ?_)).trans ?_
  · match a with
    | ⟨0, _⟩ => show b.val = 0 + b.val * (0 + 1); omega
    | ⟨1, _⟩ => show i.val * 1025 + j.val = 0 + (i.val * 1025 + j.val) * (0 + 1); omega
  refine shapeCast_apply _ h1 _ (ix3 b i (diag i j)) ?_
  rw [Shape.rowMajor_val_three, Shape.rowMajor_val_two]
  show (b.val * 512 + i.val) * 1024 + (i.val + j.val) = b.val * 524288 + (i.val * 1025 + j.val)
  omega

end Cert.Attn

end
-- ==== Proof.KernelValue.lean ====
/-
  The idealized kernel's two results as functions of its arguments.

  Between the two kernel regions the host flattens the positional scores, pads and re-cuts them, so that the second
  region finds as its bias the diagonal stripe bias[b, i, j] = P[b, i, i + j] of the scores P the first region left,
  and widens the mask bits to words.  No host line and no region writes an argument.  So the second region's entry
  contents meet the hypotheses under which its arrays end as the attention weights and the outputs of the launch
  arguments.
-/
import proofs.«154446_j13692355740492_2_alg».proof.Proof.KernelRun
import proofs.«154446_j13692355740492_2_alg».proof.Proof.PosArray
import proofs.«154446_j13692355740492_2_alg».proof.Proof.AttnArray
import proofs.«154446_j13692355740492_2_alg».proof.Proof.Skew
import Idealize.ShloMosaic.Lib.StableHlo.Run

set_option maxRecDepth 16384

noncomputable section

namespace Cert.KernelIdeal.Result

open Cert.KernelIdeal Cert.KernelIdeal.Gen
open Idealize.ShloMosaic Idealize.ShloMosaic.TcCoe Idealize.SL.Sem Idealize.ShloMosaic.ValueIdx Idealize.ShloMosaic.StableHlo
open Idealize.ShloMosaic.Pipeline (Dat)
open Cert.Attn (posScore posArr diag attnArr outArr)

variable (m : (ℓ : Loc nD τ sig) → Buf (Elt Ideal) ℓ) (ρ : Dev nD → PrngReg)

/-- The first region leaves the arguments it does not window as launched. -/
theorem W1_arg1 (c : Dev nD) : W1 m ρ c (Proc.devRef .tc main_arg1) = m ((c : Thread nD τ).loc main_arg1) :=
  W1_of_ne m ρ c main_arg1 (by decide)
theorem W1_arg2 (c : Dev nD) : W1 m ρ c (Proc.devRef .tc main_arg2) = m ((c : Thread nD τ).loc main_arg2) :=
  W1_of_ne m ρ c main_arg2 (by decide)
theorem W1_arg4 (c : Dev nD) : W1 m ρ c (Proc.devRef .tc main_arg4) = m ((c : Thread nD τ).loc main_arg4) :=
  W1_of_ne m ρ c main_arg4 (by decide)
/-- and the queries, which it reads through a window, too. -/
theorem W1_arg0 (c : Dev nD) : W1 m ρ c (Proc.devRef .tc main_arg0) = m ((c : Thread nD τ).loc main_arg0) :=
  (W1_arr m ρ c 0).trans (((dat0 (V0 m ρ) c).arrAt_in 0 rfl _).trans (A_eq0 (V0 m ρ) c 0))

/-- The positional scores after the first region. -/
theorem W1_scores (c : Dev nD) :
    (W1 m ρ c (Proc.devRef .tc main_v0) : S128x512x1024.Idx → EReal)
      = posArr (B := 128) (m ((c : Thread nD τ).loc main_arg0) : S128x512x64.Idx → EReal)
          (m ((c : Thread nD τ).loc main_arg3) : S128x1024x64.Idx → EReal) :=
  (W1_arr m ρ c 2).trans (Cert.KernelIdeal.PosArray.final (V0 m ρ) c)

/-- The second region finds the queries, keys and values as launched. -/
theorem V4_arg0 (c : Dev nD) : V4 m ρ c main_arg0 = m ((c : Thread nD τ).loc main_arg0) := by
  show StableHlo.after hostOps1_2 (StableHlo.after hostOps1_1 (StableHlo.after hostOps1 (W1 m ρ c))) (Proc.devRef .tc main_arg0) = _
  after_results
  exact W1_arg0 m ρ c
theorem V4_arg1 (c : Dev nD) : V4 m ρ c main_arg1 = m ((c : Thread nD τ).loc main_arg1) := by
  show StableHlo.after hostOps1_2 (StableHlo.after hostOps1_1 (StableHlo.after hostOps1 (W1 m ρ c))) (Proc.devRef .tc main_arg1) = _
  after_results
  exact W1_arg1 m ρ c
theorem V4_arg2 (c : Dev nD) : V4 m ρ c main_arg2 = m ((c : Thread nD τ).loc main_arg2) := by
  show StableHlo.after hostOps1_2 (StableHlo.after hostOps1_1 (StableHlo.after hostOps1 (W1 m ρ c))) (Proc.devRef .tc main_arg2) = _
  after_results
  exact W1_arg2 m ρ c

/-- It finds the mask bits widened to words. -/
theorem V4_mask (c : Dev nD) (x : S128x512x512.Idx) :
    (V4 m ρ c main_v5 : S128x512x512.Idx → BitVec 32) x
      = ((m ((c : Thread nD τ).loc main_arg4) : S128x512x512.Idx → BitVec 1) x).setWidth 32 := by
  show (StableHlo.after hostOps1_2 (StableHlo.after hostOps1_1 (StableHlo.after hostOps1 (W1 m ρ c))) (Proc.devRef .tc main_v5) : S128x512x512.Idx → BitVec 32) x = _
  after_results
  rw [W1_arg4 m ρ c]
  rfl

/-- It finds as its bias the diagonal stripe of the positional scores. -/
theorem V4_bias (c : Dev nD) (b : Fin 128) (i j : Fin 512) :
    (V4 m ρ c main_v4 : S128x512x512.Idx → EReal) (ix3 b i j)
      = posScore (B := 128) (m ((c : Thread nD τ).loc main_arg0) : S128x512x64.Idx → EReal)
          (m ((c : Thread nD τ).loc main_arg3) : S128x1024x64.Idx → EReal) b i (diag i j) := by
  show (StableHlo.after hostOps1_2 (StableHlo.after hostOps1_1 (StableHlo.after hostOps1 (W1 m ρ c))) (Proc.devRef .tc main_v4) : S128x512x512.Idx → EReal) (ix3 b i j) = _
  after_results
  refine (Cert.Attn.skew_apply (α := EReal) (W1 m ρ c (Proc.devRef .tc main_v0) : S128x512x1024.Idx → EReal)
    (sitofp (F := Ideal) .f32 (constantI S_ 32 0#32) : S_.Idx → EReal)
    Facts₀.shapeCasts_S128x512x1024_S128x524288 Facts₀.pads_S128x524288_S128x524800_000_05120 Facts₀.h_S_
    Facts₀.shapeCasts_S128x524800_S128x512x1025 Facts₀.slices_S128x512x1025_S128x512x512_0_0_0 b i j).trans ?_
  rw [W1_scores m ρ c]
  rfl

/-- So the second region's entry contents meet its hypotheses. -/
theorem entry (c : Dev nD) : Cert.KernelIdeal.AttnArray.Entry (V4 m ρ) c
    (m ((c : Thread nD τ).loc main_arg3) : S128x1024x64.Idx → EReal) (m ((c : Thread nD τ).loc main_arg4) : S128x512x512.Idx → BitVec 1) where
  bias b i j := by rw [V4_bias m ρ c b i j, V4_arg0 m ρ c]
  mask x := V4_mask m ρ c x

/-- The attention weights the program returns. -/
theorem attn_result (c : Dev nD) :
    (W5 m ρ c (Proc.devRef .tc main_v6_1) : S128x512x512.Idx → EReal)
      = attnArr (B := 128) (m ((c : Thread nD τ).loc main_arg0) : S128x512x64.Idx → EReal) (m ((c : Thread nD τ).loc main_arg1) : S128x512x64.Idx → EReal)
          (m ((c : Thread nD τ).loc main_arg3) : S128x1024x64.Idx → EReal) (m ((c : Thread nD τ).loc main_arg4) : S128x512x512.Idx → BitVec 1) := by
  refine (W5_arr m ρ c 6).trans ((Cert.KernelIdeal.AttnArray.final_attn c (entry m ρ c)).trans ?_)
  rw [V4_arg0 m ρ c, V4_arg1 m ρ c]

/-- The outputs the program returns. -/
theorem out_result (c : Dev nD) :
    (W5 m ρ c (Proc.devRef .tc main_v6_0) : S128x512x64.Idx → EReal)
      = outArr (B := 128) (m ((c : Thread nD τ).loc main_arg0) : S128x512x64.Idx → EReal) (m ((c : Thread nD τ).loc main_arg1) : S128x512x64.Idx → EReal)
          (m ((c : Thread nD τ).loc main_arg2) : S128x512x64.Idx → EReal)
          (m ((c : Thread nD τ).loc main_arg3) : S128x1024x64.Idx → EReal) (m ((c : Thread nD τ).loc main_arg4) : S128x512x512.Idx → BitVec 1) := by
  refine (W5_arr m ρ c 5).trans ((Cert.KernelIdeal.AttnArray.final_out c (entry m ρ c)).trans ?_)
  rw [V4_arg0 m ρ c, V4_arg1 m ρ c, V4_arg2 m ρ c]

/-- The run, read: every weakly fair execution terminates with the outputs and the attention weights of the launch
    arguments in the two result buffers, the arguments unchanged. -/
theorem run : θ_run defs (onTc (τ := τ) (main (F := Ideal))) ⟨m, fun _ => 0, ρ⟩ (fun r => ∀ c : Dev nD,
      r.2.mem ((c.tc : Thread nD τ).loc main_v6_0)
        = outArr (B := 128) (m ((c : Thread nD τ).loc main_arg0) : S128x512x64.Idx → EReal) (m ((c : Thread nD τ).loc main_arg1) : S128x512x64.Idx → EReal)
            (m ((c : Thread nD τ).loc main_arg2) : S128x512x64.Idx → EReal)
            (m ((c : Thread nD τ).loc main_arg3) : S128x1024x64.Idx → EReal) (m ((c : Thread nD τ).loc main_arg4) : S128x512x512.Idx → BitVec 1)
      ∧ r.2.mem ((c.tc : Thread nD τ).loc main_v6_1)
        = attnArr (B := 128) (m ((c : Thread nD τ).loc main_arg0) : S128x512x64.Idx → EReal) (m ((c : Thread nD τ).loc main_arg1) : S128x512x64.Idx → EReal)
            (m ((c : Thread nD τ).loc main_arg3) : S128x1024x64.Idx → EReal) (m ((c : Thread nD τ).loc main_arg4) : S128x512x512.Idx → BitVec 1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (out_result m ρ c), (h c).2.1.trans (attn_result m ρ c), (h c).2.2⟩)
    (Cert.KernelIdeal.Run.run_named (F := Ideal) m ρ)

end Cert.KernelIdeal.Result

end
-- ==== Proof.RefValue.lean ====
/-
  The reference is the specification.

  The reference program, read one operation at a time at an index, computes the attention of the shared specification:
  each of its two dot products divided by 8 is the specification's scaled score; its gather along the position axis
  reads, for row i and column j, the relative position i + j (the start indices are the sum of two counters, never
  negative and never above 1022, so neither the wrap-around by 1024 nor the clamp nor the out-of-range fill acts);
  the select on the mask puts -∞ where the mask is set. The softmax of each row and the product with the values follow.
-/
import proofs.«154446_j13692355740492_2_alg».proof.Proof.RefVals
import proofs.«154446_j13692355740492_2_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.Attn

/-! ## Words: small naturals read back signed -/

/-- A natural below 2^31, read back signed from its 32-bit word, is itself. -/
theorem toInt_ofNat_small (n : Nat) (h : n < 2147483648) : (BitVec.ofNat 32 n).toInt = (n : Int) := by
  rw [BitVec.toInt_eq_toNat_of_lt (by rw [BitVec.toNat_ofNat]; omega), BitVec.toNat_ofNat]
  omega

/-- The word of a natural below 2^31 is not negative: "less than 0" answers 0. -/
theorem slt_zero_small (n : Nat) (h : n < 2147483648) : IntOp.cmpi .slt (BitVec.ofNat 32 n) 0#32 = 0#1 := by
  have hs : (BitVec.ofNat 32 n).slt 0#32 = false := by
    rw [BitVec.slt_eq_decide, toInt_ofNat_small n h, BitVec.toInt_zero]
    exact decide_eq_false (by omega)
  show BitVec.ofBool ((BitVec.ofNat 32 n).slt 0#32) = 0#1
  rw [hs]; rfl

/-- … and "at least 0" answers 1. -/
theorem sge_zero_small (n : Nat) (h : n < 2147483648) : IntOp.cmpi .sge (BitVec.ofNat 32 n) 0#32 = 1#1 := by
  have hs : (0#32 : BitVec 32).sle (BitVec.ofNat 32 n) = true := by
    rw [BitVec.sle_eq_decide, toInt_ofNat_small n h, BitVec.toInt_zero]
    exact decide_eq_true (by omega)
  show BitVec.ofBool ((0#32 : BitVec 32).sle (BitVec.ofNat 32 n)) = 1#1
  rw [hs]; rfl

/-- The word of a natural up to 1023 is "at most 1023". -/
theorem sle_1023_small (n : Nat) (h : n ≤ 1023) : IntOp.cmpi .sle (BitVec.ofNat 32 n) 1023#32 = 1#1 := by
  have hs : (BitVec.ofNat 32 n).sle 1023#32 = true := by
    rw [BitVec.sle_eq_decide, toInt_ofNat_small n (by omega), toInt_ofNat_small 1023 (by omega)]
    exact decide_eq_true (by omega)
  show BitVec.ofBool ((BitVec.ofNat 32 n).sle 1023#32) = 1#1
  rw [hs]; rfl

/-! ## The start indices: the word of i + j -/

/-- The two position counters added: at (0, i, j) the word of i + j. -/
theorem v13_ix (i j : Fin 512) :
    val_main_v13 (F := Ideal) (ix3 (0 : Fin 1) i j) = BitVec.ofNat 32 (i.val + j.val) := by
  rw [BitVec.ofNat_add, val_main_v13_apply, val_main_v12_apply, val_main_v10_apply, val_main_v11_apply, val_main_v7_apply,
    val_main_v9_apply, val_main_v6_apply, val_main_v8_apply]
  rfl

/-- The wrapped start index at (0, i, j): i + j is not negative, so 1024 is not added. -/
theorem v4_ix (i j : Fin 512) :
    val_main_call0_v4 (F := Ideal) (ix3 (0 : Fin 1) i j) = BitVec.ofNat 32 (i.val + j.val) := by
  have hi := i.isLt; have hj := j.isLt
  rw [val_main_call0_v4_apply, val_main_call0_v1_apply, val_main_call0_v0_apply, val_main_call0_c_apply, v13_ix,
    slt_zero_small (i.val + j.val) (by omega), select_zero]

/-- The start indices, reshaped to [512, 512, 1]: at (i, j, 0) the word of i + j. -/
theorem v5_ix (i j : Fin 512) :
    val_main_call0_v5 (F := Ideal) (ix3 i j (0 : Fin 1)) = BitVec.ofNat 32 (i.val + j.val) := by
  have hi := i.isLt; have hj := j.isLt
  rw [val_main_call0_v5_apply]
  have e : idx_main_call0_v5 (ix3 i j (0 : Fin 1)) = ix3 (0 : Fin 1) i j := by
    funext a; refine Fin.ext ?_
    match a with
    | ⟨0, _⟩ => rfl
    | ⟨1, _⟩ => show ((i.val * 512 + j.val) * 1 + 0) / 512 % 512 = i.val; omega
    | ⟨2, _⟩ => show ((i.val * 512 + j.val) * 1 + 0) % 512 = j.val; omega
  rw [e, v4_ix]

/-! ## The in-range test: i + j lies in [0, 1023] everywhere -/

/-- At (i, j, 0) both comparisons hold. -/
theorem v11_ix (i j : Fin 512) : val_main_call0_v11 (F := Ideal) (ix3 i j (0 : Fin 1)) = 1#1 := by
  have hi := i.isLt; have hj := j.isLt
  rw [val_main_call0_v11_apply, val_main_call0_v7_apply, val_main_call0_v10_apply, val_main_call0_v6_apply,
    val_main_call0_c_2_apply, val_main_call0_v9_apply, val_main_call0_v8_apply, val_main_call0_c_1_apply, v5_ix,
    sge_zero_small (i.val + j.val) (by omega), sle_1023_small (i.val + j.val) (by omega)]
  rfl

/-- A fold of "and" from the bit 1 over entries that are all 1 is 1. -/
theorem fold_andi_ones {ι : Type} (s : Finset ι) (f : ι → BitVec 1) (h : ∀ k, f k = 1#1) :
    s.fold IntOp.andi 1#1 f = 1#1 := by
  classical
  obtain rfl : f = fun _ => 1#1 := funext h
  refine Finset.induction_on s rfl ?_
  intro a s ha ih
  rw [Finset.fold_insert ha, ih]; rfl

/-- The index (i, j) of the reduced array with the unit axis's one coordinate put back is (i, j, 0). -/
theorem lift_mask (h : S512x512x1.Reduces [2] S512x512) (i j : Fin 512) (k : Fin (S512x512x1.size 2)) :
    h.lift (ix2 i j) k = ix3 i j (0 : Fin 1) := by
  have hk : k.val < 1 := k.isLt
  funext c; apply Fin.ext
  match c with
  | ⟨0, _⟩ => rfl
  | ⟨1, _⟩ => rfl
  | ⟨2, _⟩ => show k.val = 0; omega

/-- The and-reduce over the unit axis: at (i, j) the bit 1. -/
theorem v12_ix (i j : Fin 512) : val_main_call0_v12 (F := Ideal) (ix2 i j) = 1#1 := by
  unfold val_main_call0_v12
  have hR : S512x512x1.Reduces [2] S512x512 := by decide
  rw [Host.reduce_eq_fold_single IntOp.andi _ _ reducesTo_S512x512x1_S512x512_d2 hR h_S_, val_main_call0_c_3_apply]
  exact fold_andi_ones _ _ fun k => by
    show val_main_call0_v11 (F := Ideal) (hR.lift (ix2 i j) k) = 1#1
    rw [lift_mask hR i j k, v11_ix]

/-- The in-range test broadcast over the batch: at (b, i, j) the bit 1. -/
theorem v14m_ix (b : Fin 128) (i j : Fin 512) : val_main_call0_v14 (F := Ideal) (ix3 b i j) = 1#1 := by
  rw [val_main_call0_v14_apply]
  have e : idx_main_call0_v14 (ix3 b i j) = ix2 i j := by
    funext a
    match a with
    | ⟨0, _⟩ => rfl
    | ⟨1, _⟩ => rfl
  rw [e, v12_ix]

/-! ## The gather: row (b, i) of the operand at the relative position i + j

Its dimension numbers make axis 0 of the operand an offset axis (the result's axis 0, the whole batch), axis 1 a
batching axis paired with axis 0 of the start indices (the result's axis 1), and axis 2 the collapsed axis the
start index selects, clamped to [0, 1023]. With the start index at (i, j, 0) the word of i + j, which is at most
1022, the element read for (b, i, j) is the operand's at (b, i, i + j). -/

section Gather
variable {α : Type}

local notation "GD" => gather_S128x512x1024_S512x512x1_S128x512x512_0_2_1_0_2_2_12811

theorem gather_ix (x : S128x512x1024.Idx → α) (idx : IVec S512x512x1 32) (b : Fin 128) (i j : Fin 512)
    (hidx : idx (ix3 i j (0 : Fin 1)) = BitVec.ofNat 32 (i.val + j.val)) :
    Host.gather GD x idx (ix3 b i j) = x (ix3 b i (diag i j)) := by
  have hi := i.isLt; have hj := j.isLt
  unfold Host.gather
  refine congrArg x ?_
  funext a
  refine Fin.ext ?_
  match a with
  | ⟨0, _⟩ =>
    -- the batch axis: an offset axis, read off the result's axis 0
    show (GD).start (ix3 b i j) idx 0 + (GD).batchCoord (ix3 b i j) 0 + (GD).offCoord (ix3 b i j) 0 = b.val
    have h1 : (GD).start (ix3 b i j) idx 0 = 0 := by
      unfold GatherDims.start
      exact dif_neg (show ¬ (0 : Fin S128x512x1024.rank) ∈ (GD).startIndexMap by decide)
    have h2 : (GD).batchCoord (ix3 b i j) 0 = 0 :=
      GatherDims.batchCoord_eq_zero GD (ix3 b i j) 0 (by decide)
    have h3 : (GD).offCoord (ix3 b i j) 0 = b.val := by
      unfold GatherDims.offCoord
      rw [dif_pos (show (0 : Fin S128x512x1024.rank) ∈ (GD).sKept by decide)]
      rfl
    rw [h1, h2, h3]; omega
  | ⟨1, _⟩ =>
    -- the query axis: a batching axis, paired with the start indices' axis 0, the result's axis 1
    show (GD).start (ix3 b i j) idx 1 + (GD).batchCoord (ix3 b i j) 1 + (GD).offCoord (ix3 b i j) 1 = i.val
    have h1 : (GD).start (ix3 b i j) idx 1 = 0 := by
      unfold GatherDims.start
      exact dif_neg (show ¬ (1 : Fin S128x512x1024.rank) ∈ (GD).startIndexMap by decide)
    have h2 : (GD).batchCoord (ix3 b i j) 1 = i.val := by
      unfold GatherDims.batchCoord
      rw [dif_pos (show (1 : Fin S128x512x1024.rank) ∈ (GD).operandBatchingDims by decide)]
      rfl
    have h3 : (GD).offCoord (ix3 b i j) 1 = 0 :=
      GatherDims.offCoord_eq_zero GD (ix3 b i j) 1 (by decide)
    rw [h1, h2, h3]; omega
  | ⟨2, _⟩ =>
    -- the position axis: collapsed, selected by the start index, clamped to [0, 1023]
    show (GD).start (ix3 b i j) idx 2 + (GD).batchCoord (ix3 b i j) 2 + (GD).offCoord (ix3 b i j) 2 = i.val + j.val
    have h2 : (GD).batchCoord (ix3 b i j) 2 = 0 :=
      GatherDims.batchCoord_eq_zero GD (ix3 b i j) 2 (by decide)
    have h3 : (GD).offCoord (ix3 b i j) 2 = 0 :=
      GatherDims.offCoord_eq_zero GD (ix3 b i j) 2 (by decide)
    have h1 : (GD).start (ix3 b i j) idx 2 = i.val + j.val := by
      unfold GatherDims.start
      rw [dif_pos (show (2 : Fin S128x512x1024.rank) ∈ (GD).startIndexMap by decide)]
      have hsi : (GD).siIdx (ix3 b i j) ⟨List.idxOf (2 : Fin S128x512x1024.rank) (GD).startIndexMap,
          List.idxOf_lt_length_iff.2 (by decide)⟩ = ix3 i j (0 : Fin 1) := by
        funext c; refine Fin.ext ?_
        match c with
        | ⟨0, _⟩ => rfl
        | ⟨1, _⟩ => rfl
        | ⟨2, _⟩ => rfl
      rw [hsi, hidx, toInt_ofNat_small (i.val + j.val) (by omega), Int.toNat_natCast]
      show min (i.val + j.val) (1024 - 1) = i.val + j.val
      omega
    rw [h1, h2, h3]; omega

end Gather

/-! ## The two scaled products -/

section Float
variable (x0 x1 x2 : (⟨S128x512x64, .f32⟩ : BufTy).Contents (Elt Ideal))
  (x3 : (⟨S128x1024x64, .f32⟩ : BufTy).Contents (Elt Ideal)) (x4 : (⟨S128x512x512, .i1⟩ : BufTy).Contents (Elt Ideal))

/-- The f32 word of 0 denotes 0. -/
theorem ofBits_zero : Ideal.ofBits .f32 0x00000000#32 = 0 := by
  simp [Ideal.ofBits, Ideal.ieee]

/-- The query–key product divided by 8 is the scaled key score. -/
theorem v2_ix (b : Fin 128) (i j : Fin 512) : val_main_v2 (F := Ideal) x0 x1 (ix3 b i j) = keyScore x0 x1 b i j := by
  rw [val_main_v2_apply, val_main_v0_apply, val_main_v1_apply, val_main_cst_apply, Ideal.hostDivf_def, Ideal.ofBits_def,
    div_eight]
  unfold keyScore
  refine congrArg (fun s => s * scale) (Finset.sum_congr rfl fun k _ => ?_)
  have el : lidx_main_v0 (ix3 b i j) k = ix3 b i k := by
    funext a
    match a with
    | ⟨0, _⟩ => rfl
    | ⟨1, _⟩ => rfl
    | ⟨2, _⟩ => rfl
  have er : ridx_main_v0 (ix3 b i j) k = ix3 b j k := by
    funext a
    match a with
    | ⟨0, _⟩ => rfl
    | ⟨1, _⟩ => rfl
    | ⟨2, _⟩ => rfl
  rw [el, er]

/-- The query–position product divided by 8 is the scaled positional score, at every relative position. -/
theorem v5f_ix (b : Fin 128) (i : Fin 512) (p : Fin 1024) :
    val_main_v5 (F := Ideal) x0 x3 (ix3 b i p) = posScore x0 x3 b i p := by
  rw [val_main_v5_apply, val_main_v3_apply, val_main_v4_apply, val_main_cst_0_apply, Ideal.hostDivf_def, Ideal.ofBits_def,
    div_eight]
  unfold posScore
  refine congrArg (fun s => s * scale) (Finset.sum_congr rfl fun k _ => ?_)
  have el : lidx_main_v3 (ix3 b i p) k = ix3 b i k := by
    funext a
    match a with
    | ⟨0, _⟩ => rfl
    | ⟨1, _⟩ => rfl
    | ⟨2, _⟩ => rfl
  have er : ridx_main_v3 (ix3 b i p) k = ix3 b p k := by
    funext a
    match a with
    | ⟨0, _⟩ => rfl
    | ⟨1, _⟩ => rfl
    | ⟨2, _⟩ => rfl
  rw [el, er]

/-- The gathered bias at (b, i, j): the positional score at the relative position i + j. -/
theorem v14_ix (b : Fin 128) (i j : Fin 512) :
    val_main_v14 (F := Ideal) x0 x3 (ix3 b i j) = posScore x0 x3 b i (diag i j) := by
  rw [val_main_v14_apply, v14m_ix, select_one]
  unfold val_main_call0_v13
  rw [gather_ix _ _ b i j (v5_ix i j), v5f_ix]

/-! ## The logits, their row maximum, and the softmax -/

/-- The masked logit at (b, i, j): the key score plus the positional score at i + j, or -∞ where the mask is set. -/
theorem logits (b : Fin 128) (i j : Fin 512) :
    val_main_v16 (F := Ideal) x0 x1 x3 x4 (ix3 b i j) = logit x0 x1 x3 x4 b i j := by
  rw [val_main_v16_apply, val_main_call1_v1_apply, val_main_call1_v0_apply, val_main_cst_1_apply, val_main_v15_apply,
    v2_ix, v14_ix, Ideal.ofBits_def, ofBits_neg_inf]
  rfl

/-- The index (b, i) of a row with the coordinate k put back on the reduced axis is (b, i, k). -/
theorem lift_row (h : S128x512x512.Reduces [2] S128x512) (b : Fin 128) (i : Fin 512) (k : Fin 512) :
    h.lift (ix2 b i) k = ix3 b i k := by
  funext c; apply Fin.ext
  match c with
  | ⟨0, _⟩ => rfl
  | ⟨1, _⟩ => rfl
  | ⟨2, _⟩ => rfl

/-- The max-reduce of a row of logits from -∞ is the row's maximum. -/
theorem v17_ix (b : Fin 128) (i : Fin 512) :
    val_main_v17 (F := Ideal) x0 x1 x3 x4 (ix2 b i) = rowMax (logit x0 x1 x3 x4 b i) := by
  unfold val_main_v17
  have hR : S128x512x512.Reduces [2] S128x512 := by decide
  rw [Host.reduce_eq_fold_single FloatOps.maximumf _ _ reducesTo_S128x512x512_S128x512_d2 hR h_S_]
  have hf : (val_main_v16 (F := Ideal) x0 x1 x3 x4 ∘ hR.lift (ix2 b i)) = fun k : Fin 512 => logit x0 x1 x3 x4 b i k :=
    funext fun (k : Fin 512) => by
      show val_main_v16 (F := Ideal) x0 x1 x3 x4 (hR.lift (ix2 b i) k) = logit x0 x1 x3 x4 b i k
      rw [lift_row hR b i k, logits]
  rw [hf, val_main_cst_2_apply, Ideal.ofBits_def, ofBits_neg_inf]
  rfl

/-- Taking the maximum with -∞ once more changes nothing. -/
theorem v19_ix (b : Fin 128) (i : Fin 512) :
    val_main_v19 (F := Ideal) x0 x1 x3 x4 (ix2 b i) = rowMax (logit x0 x1 x3 x4 b i) := by
  rw [val_main_v19_apply, val_main_v18_apply, val_main_cst_3_apply, v17_ix, Ideal.ofBits_def, ofBits_neg_inf,
    Ideal.maximumf_def]
  show max (⊥ : EReal) (rowMax (logit x0 x1 x3 x4 b i)) = rowMax (logit x0 x1 x3 x4 b i)
  exact max_eq_right bot_le

/-- The row maximum broadcast back over the row. -/
theorem v21_ix (b : Fin 128) (i j : Fin 512) :
    val_main_v21 (F := Ideal) x0 x1 x3 x4 (ix3 b i j) = rowMax (logit x0 x1 x3 x4 b i) := by
  rw [val_main_v21_apply, val_main_v20_apply]
  have e : idx_main_v20 (idx_main_v21 (ix3 b i j)) = ix2 b i := by
    funext a
    match a with
    | ⟨0, _⟩ => rfl
    | ⟨1, _⟩ => rfl
  rw [e, v19_ix]

/-- The exponential of the logit less the row maximum. -/
theorem v23_ix (b : Fin 128) (i j : Fin 512) :
    val_main_v23 (F := Ideal) x0 x1 x3 x4 (ix3 b i j)
      = Ideal.exp (logit x0 x1 x3 x4 b i j - rowMax (logit x0 x1 x3 x4 b i)) := by
  rw [val_main_v23_apply, val_main_v22_apply, logits, v21_ix]
  rfl

/-- The sum of a row of exponentials (from 0). -/
theorem v24_ix (b : Fin 128) (i : Fin 512) :
    val_main_v24 (F := Ideal) x0 x1 x3 x4 (ix2 b i)
      = ∑ k : Fin 512, Ideal.exp (logit x0 x1 x3 x4 b i k - rowMax (logit x0 x1 x3 x4 b i)) := by
  rw [val_main_v24_apply, val_main_cst_4_apply, Ideal.ofBits_def, ofBits_zero, zero_add]
  refine Finset.sum_congr rfl fun k _ => ?_
  have e : idx_main_v24 (ix2 b i) k = ix3 b i k := by
    funext a
    match a with
    | ⟨0, _⟩ => rfl
    | ⟨1, _⟩ => rfl
    | ⟨2, _⟩ => rfl
  rw [e, v23_ix]

/-- The row sum broadcast back over the row. -/
theorem v26_ix (b : Fin 128) (i j : Fin 512) :
    val_main_v26 (F := Ideal) x0 x1 x3 x4 (ix3 b i j)
      = ∑ k : Fin 512, Ideal.exp (logit x0 x1 x3 x4 b i k - rowMax (logit x0 x1 x3 x4 b i)) := by
  rw [val_main_v26_apply, val_main_v25_apply]
  have e : idx_main_v25 (idx_main_v26 (ix3 b i j)) = ix2 b i := by
    funext a
    match a with
    | ⟨0, _⟩ => rfl
    | ⟨1, _⟩ => rfl
  rw [e, v24_ix]

/-- The quotient is the attention weight. -/
theorem v27_ix (b : Fin 128) (i j : Fin 512) :
    val_main_v27 (F := Ideal) x0 x1 x3 x4 (ix3 b i j) = attnAt x0 x1 x3 x4 b i j := by
  rw [val_main_v27_apply, v23_ix, v26_ix]
  rfl

/-- THE ATTENTION WEIGHTS the reference computes are the specification's. -/
theorem attn_eq : val_main_v27 (F := Ideal) x0 x1 x3 x4 = attnArr x0 x1 x3 x4 := by
  funext x
  obtain ⟨b, i, j, rfl⟩ : ∃ (b : Fin 128) (i j : Fin 512), x = ix3 b i j := ⟨x 0, x 1, x 2, eq_ix3 x⟩
  rw [v27_ix, attnArr_ix3]

/-- THE OUTPUT the reference computes is the specification's: the weights times the values. -/
theorem out_eq : val_main_v28 (F := Ideal) x0 x1 x2 x3 x4 = outArr x0 x1 x2 x3 x4 := by
  funext x
  obtain ⟨b, i, d, rfl⟩ : ∃ (b : Fin 128) (i : Fin 512) (d : Fin 64), x = ix3 b i d := ⟨x 0, x 1, x 2, eq_ix3 x⟩
  rw [val_main_v28_apply, outArr_ix3]
  unfold outAt
  refine Finset.sum_congr rfl fun k _ => ?_
  have el : lidx_main_v28 (ix3 b i d) k = ix3 b i k := by
    funext a
    match a with
    | ⟨0, _⟩ => rfl
    | ⟨1, _⟩ => rfl
    | ⟨2, _⟩ => rfl
  have er : ridx_main_v28 (ix3 b i d) k = ix3 b k d := by
    funext a
    match a with
    | ⟨0, _⟩ => rfl
    | ⟨1, _⟩ => rfl
    | ⟨2, _⟩ => rfl
  rw [el, er, v27_ix]

end Float

end Cert.ReferenceIdeal.RefValue

end
-- ==== Proof.lean ====
/-
  The certificate: a Pallas attention kernel with a relative-position bias against its jnp reference.

  Both programs compute, for queries q, keys k, values v, positions pos and a Boolean mask,

      s(b,i,j)   = (Σ_d q[b,i,d]·k[b,j,d])·(1/8) + (Σ_d q[b,i,d]·pos[b,i+j,d])·(1/8),   -∞ where masked,
      attn(b,i,·) = softmax of the row s(b,i,·) with its maximum subtracted,
      out(b,i,d)  = Σ_j attn(b,i,j)·v[b,j,d]

  over the extended reals (Proof/Spec.lean).  The kernel is two regions over blocks of two batch entries — the
  positional scores for all 1024 relative positions, then logits, softmax and output — joined by a host reshuffle
  that reads off the diagonal stripe p = i + j (Proof/Skew.lean); its fill for masked logits is a large negative
  constant the idealization names -∞.  The reference takes the stripe by a gather, divides by 8 where the kernel
  multiplies by 0.125 (equal on every extended real), and fills with -∞ itself.  No step needs the inputs finite:
  the two sides apply the same operations to the same operands, entry by entry, only arranged in blocks differently.

  Kernel side: Proof/KernelRun.lean (the run with both results named), Proof/Blocks.lean (what each body computes on a
  block), Proof/PosArray.lean and Proof/AttnArray.lean (from blocks to whole arrays), Proof/KernelValue.lean (the two
  regions joined).  Reference side: its run and its stages read at an index, Proof/RefTail.lean and Proof/RefValue.lean.
-/
import proofs.«154446_j13692355740492_2_alg».proof.Defs
import proofs.«154446_j13692355740492_2_alg».proof.Proof.Gen.Kernel
import proofs.«154446_j13692355740492_2_alg».proof.Proof.Gen.Kernel.Skeleton
import proofs.«154446_j13692355740492_2_alg».proof.Proof.Gen.Kernel.Launch
import proofs.«154446_j13692355740492_2_alg».proof.Proof.Gen.Kernel.Points
import proofs.«154446_j13692355740492_2_alg».proof.Proof.Gen.Kernel.Frame
import proofs.«154446_j13692355740492_2_alg».proof.Proof.Gen.KernelIdeal
import proofs.«154446_j13692355740492_2_alg».proof.Proof.Gen.KernelIdeal.Skeleton
import proofs.«154446_j13692355740492_2_alg».proof.Proof.Gen.KernelIdeal.Launch
import proofs.«154446_j13692355740492_2_alg».proof.Proof.Gen.KernelIdeal.Points
import proofs.«154446_j13692355740492_2_alg».proof.Proof.Gen.KernelIdeal.Frame
import proofs.«154446_j13692355740492_2_alg».proof.Proof.Gen.ReferenceIdeal
import proofs.«154446_j13692355740492_2_alg».proof.Proof.Gen.Pre_finite_inputs
import proofs.«154446_j13692355740492_2_alg».proof.Proof.RefRunStaged
import proofs.«154446_j13692355740492_2_alg».proof.Proof.KernelValue
import proofs.«154446_j13692355740492_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the results dropped. -/
theorem frame_referenceIdeal : Cert.frame_ReferenceIdeal := fun m ρ _ =>
  (θ_run Cert.ReferenceIdeal.defs _ _).mono (fun _ h c => (h c).2.2) (Cert.ReferenceIdeal.Staged.run m ρ)

/-- The one rewrite of the idealization: the finite fill for masked logits is named -∞. -/
theorem preserves : Cert.preserves_Kernel_KernelIdeal :=
  IdealRules.named_const.statement Cert.KernelIdeal.κ "neg_big" .f32 0xFF333332#32 ⊥ rfl

/-- Over the extended reals the kernel's two result arrays and the reference's are the same functions of the
    arguments: the outputs and the attention weights of the specification. -/
theorem algebraic : Cert.algebraic_KernelIdeal_ReferenceIdeal := by
  intro m ρ m' ρ' _ hagree
  refine ⟨_, _, Cert.KernelIdeal.Result.run m ρ, ?_⟩
  refine (θ_run Cert.ReferenceIdeal.defs _ _).mono (fun _ h c => ⟨(h c).1.trans ?_, (h c).2.1.trans ?_, (h c).2.2⟩)
    (Cert.ReferenceIdeal.Staged.run m' ρ')
  · rw [Cert.ReferenceIdeal.RefValue.out_eq, (hagree c).1, (hagree c).2.1, (hagree c).2.2.1, (hagree c).2.2.2.1, (hagree c).2.2.2.2]
  · rw [Cert.ReferenceIdeal.RefValue.attn_eq, (hagree c).1, (hagree c).2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
